-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16x2 .f32) (main_arg6 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x2 .f32 := Host.absf main_arg5
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x2 .f32) (main_arg6 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x2 : Shape := ⟨2, ![100000, 2]⟩
abbrev S4000x2 : Shape := ⟨2, ![4000, 2]⟩
abbrev S3300000x2 : Shape := ⟨2, ![3300000, 2]⟩
abbrev S1x2 : Shape := ⟨2, ![1, 2]⟩
abbrev S4000 : Shape := ⟨1, ![4000]⟩
abbrev S4000x1 : Shape := ⟨2, ![4000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x2, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x2, .f32⟩
  | .hbm, ⟨78, _⟩ => ⟨S3300000x2, .f32⟩
  | .hbm, ⟨79, _⟩ => ⟨S3300000x2, .f32⟩
  | .hbm, ⟨80, _⟩ => ⟨S_, .f32⟩
  | .hbm, ⟨81, _⟩ => ⟨S100000x2, .f32⟩
  | .hbm, ⟨82, _⟩ => ⟨S3300000x1, .i32⟩
  | .hbm, ⟨83, _⟩ => ⟨S100000x2, .f32⟩
  | .hbm, ⟨84, _⟩ => ⟨S1x2, .f32⟩
  | .hbm, ⟨85, _⟩ => ⟨S100000x2, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x2, .f32⟩
  | .local _ .vmem, ⟨9, _⟩ => ⟨S4000x2, .f32⟩
  | .local _ .vmem, ⟨10, _⟩ => ⟨S4000x2, .f32⟩
  | .local _ .vmem, ⟨11, _⟩ => ⟨S4000x2, .f32⟩
  | .local _ .vmem, ⟨12, _⟩ => ⟨S4000x2, .f32⟩
  | .local _ .vmem, ⟨13, _⟩ => ⟨S1x2, .f32⟩
  | .local _ .vmem, ⟨14, _⟩ => ⟨S4000x2, .f32⟩
  | .local _ .vmem, ⟨15, _⟩ => ⟨S4000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x2_S16x2_0_0 : ∀ a, (![0, 0] : Fin 2 → Nat) a + S16x2.size a ≤ S16x2.size a
  h_S16x2 : 0 < S16x2.numel
  inb_S4000x2_S4000x2_0_0 : ∀ a, (![0, 0] : Fin 2 → Nat) a + S4000x2.size a ≤ S4000x2.size a
  h_S4000x2 : 0 < S4000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S4000x2_S4000x2 : S4000x2.ShapeCasts S4000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x2_S4000x2_1_0_0_1_n_n_wf : DotDims.WF S4000x16 S16x2 S4000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x2.size a ≤ S100000x2.size a
  hwx1_3 : ∀ i : grid1.Coords, EltTy.bits .f32 = 32 ∨ (Rect.block (s := S100000x2) S4000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x2.size a ≤ S100000x2.size a
  hwx2_0 : ∀ i : grid2.Coords, EltTy.bits .f32 = 32 ∨ (Rect.block (s := S100000x2) S4000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x2.size a ≤ S100000x2.size a
  hwx2_2 : ∀ i : grid2.Coords, EltTy.bits .f32 = 32 ∨ (Rect.block (s := S100000x2) S4000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x2_S4000x2_1_0_0_1_n_n : DotDims S4000x16 S16x2 S4000x2 where
  lhsContracting := [1]
  rhsContracting := [0]
  lhsNonContracting := [0]
  rhsNonContracting := [1]
  lhsBatch := []
  rhsBatch := []
  wf := dot_S4000x16_S16x2_S4000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S4000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x2, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x2, .f32⟩
  | .hbm, ⟨83, _⟩ => ⟨S3300000x2, .f32⟩
  | .hbm, ⟨84, _⟩ => ⟨S3300000x2, .f32⟩
  | .hbm, ⟨85, _⟩ => ⟨S_, .f32⟩
  | .hbm, ⟨86, _⟩ => ⟨S100000x2, .f32⟩
  | .hbm, ⟨87, _⟩ => ⟨S3300000x1, .i32⟩
  | .hbm, ⟨88, _⟩ => ⟨S100000x2, .f32⟩
  | .hbm, ⟨89, _⟩ => ⟨S1x2, .f32⟩
  | .hbm, ⟨90, _⟩ => ⟨S100000x2, .f32⟩
  | .hbm, ⟨91, _⟩ => ⟨S100000x2, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x2, .f32⟩
  | .hbm, ⟨99, _⟩ => ⟨S100000x2, .f32⟩
  | .hbm, ⟨100, _⟩ => ⟨S100000x2, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x2, .f32⟩
  | .hbm, ⟨106, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run with its result named.

  @main is eight segments: three stretches of host operations, the first matrix product's region, a host stretch,
  the second region (bias, rectifier, matrix product), a host stretch, and the last region (bias and row-wise
  log-softmax). The buffer contents at the segment boundaries form a fold from the launch memory; the last
  boundary's contents are `W8`. Every weakly fair execution terminates with each unscoped buffer at `W8`: so the
  result buffer ends at `W8` read at the result's reference, and the seven arguments end as launched.
-/
import proofs.«177154_j22840636080474_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and each argument array as launched. -/
theorem run_named : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Result

end
-- ==== Proof.Stages.lean ====
/-
  The graph-convolution pipeline's host stages, each as one function of the arrays it reads.

  A graph of 100000 nodes and 3200000 weighted edges is given by its endpoint table (row 0 the sources, row 1 the
  targets) and its edge weights. Every node gets a self-loop of weight one, so there are 3300000 edges in all. The
  degree of a node is the sum of the weights of the edges that END at it; `dinv` is its inverse square root where the
  degree is positive and zero elsewhere; the symmetric normalisation of an edge is `dinv[source] * weight * dinv[target]`.
  One round of propagation gathers each edge's source row of a node feature table, scales it by the edge's
  normalisation and adds it into the edge's target row. A negative endpoint counts from the end (100000 is added).

  Both programs apply exactly these stages between their dense layers; stating each once lets the comparison of the
  two programs go stage by stage, without ever opening a gather or a scatter.
-/
import proofs.«177154_j22840636080474_1_alg».proof.Proof.Gen.KernelIdeal

noncomputable section

namespace Cert.Gcn

open Idealize.ShloMosaic Cert.KernelIdeal Cert.KernelIdeal.Facts₀ Cert.KernelIdeal.Facts

variable {F : FTy → Type} [FloatOps F]

/-- The edges' sources, the self-loops' appended: row 0 of the endpoint table, then 0, 1, …, 99999. -/
def sources (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The edges' targets, the self-loops' appended: row 1 of the endpoint table, then 0, 1, …, 99999. -/
def targets (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- The edges' weights, a one appended per self-loop. -/
def weights (w : (⟨S3200000, .f32⟩ : BufTy).Contents (Elt F)) : (⟨S3300000, .f32⟩ : BufTy).Contents (Elt F) :=
  concatenate S3300000 0 [⟨S3200000, w⟩, ⟨S100000, broadcastInDim S100000 ![] bcast_S_S100000 (constant S_ .f32 0x3F800000#32)⟩] concatenates_S3200000_S100000_S3300000_d0

/-- A node's degree: the weights of the edges ending at it, added up from zero. -/
def degree (tgt : (⟨S3300000, .i32⟩ : BufTy).Contents (Elt F)) (wt : (⟨S3300000, .f32⟩ : BufTy).Contents (Elt F)) :
    (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 tgt) wt

/-- Is the degree positive? -/
def degreePositive (deg : (⟨S100000, .f32⟩ : BufTy).Contents (Elt F)) : (⟨S100000, .i1⟩ : BufTy).Contents (Elt F) :=
  cmpf .ogt deg (broadcastInDim S100000 ![] bcast_S_S100000 (constant S_ .f32 0x00000000#32))

/-- The inverse square root of the degree where the degree is positive (`pos`), zero elsewhere. -/
def dinvOf (pos : (⟨S100000, .i1⟩ : BufTy).Contents (Elt F)) (rs : (⟨S100000, .f32⟩ : BufTy).Contents (Elt F))
    (zero : (⟨S_, .f32⟩ : BufTy).Contents (Elt F)) : (⟨S100000, .f32⟩ : BufTy).Contents (Elt F) :=
  select pos rs (broadcastInDim S100000 ![] bcast_S_S100000 (id zero))

/-- An endpoint read as a node number: a negative one counts from the end. -/
def wrap (idx : (⟨S3300000, .i32⟩ : BufTy).Contents (Elt F)) : (⟨S3300000, .i32⟩ : BufTy).Contents (Elt F) :=
  select (cmpi .slt idx (broadcastInDim S3300000 ![] bcast_S_S3300000 (constantI S_ 32 0#32)))
    (addi idx (broadcastInDim S3300000 ![] bcast_S_S3300000 (constantI S_ 32 100000#32))) idx

/-- A per-node scalar read at each edge's endpoint. -/
def atEndpoint (v : (⟨S100000, .f32⟩ : BufTy).Contents (Elt F)) (idx : (⟨S3300000, .i32⟩ : BufTy).Contents (Elt F)) :
    (⟨S3300000, .f32⟩ : BufTy).Contents (Elt F) :=
  Host.gather gather_S100000_S3300000x1_S3300000_n_0_n_n_0_1_1 v (broadcastInDim S3300000x1 ![0] bcast_S3300000_S3300000x1_0 (wrap idx))

/-- Each edge's symmetric normalisation: `dinv[source] * weight * dinv[target]`. -/
def edgeNorm (dinv : (⟨S100000, .f32⟩ : BufTy).Contents (Elt F)) (wt : (⟨S3300000, .f32⟩ : BufTy).Contents (Elt F))
    (src tgt : (⟨S3300000, .i32⟩ : BufTy).Contents (Elt F)) : (⟨S3300000, .f32⟩ : BufTy).Contents (Elt F) :=
  mulf (mulf (atEndpoint dinv src) wt) (atEndpoint dinv tgt)

/-- One round of propagation of a 16-column node table: every edge adds its normalisation times its source's row
    into its target's row, from zero. -/
def propagate16 (h : (⟨S100000x16, .f32⟩ : BufTy).Contents (Elt F)) (nrm : (⟨S3300000, .f32⟩ : BufTy).Contents (Elt F))
    (src tgt : (⟨S3300000, .i32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32))
    (broadcastInDim S3300000x1 ![0] bcast_S3300000_S3300000x1_0 tgt)
    (mulf (broadcastInDim S3300000x16 ![0, 1] bcast_S3300000x1_S3300000x16_0_1 (broadcastInDim S3300000x1 ![0] bcast_S3300000_S3300000x1_0 nrm))
      (Host.gather gather_S100000x16_S3300000x1_S3300000x16_1_0_n_n_0_1_116 h (broadcastInDim S3300000x1 ![0] bcast_S3300000_S3300000x1_0 (wrap src))))

/-- The same round for a 2-column node table. -/
def propagate2 (h : (⟨S100000x2, .f32⟩ : BufTy).Contents (Elt F)) (nrm : (⟨S3300000, .f32⟩ : BufTy).Contents (Elt F))
    (src tgt : (⟨S3300000, .i32⟩ : BufTy).Contents (Elt F)) : (⟨S100000x2, .f32⟩ : BufTy).Contents (Elt F) :=
  Host.scatterAdd scatter_S100000x2_S3300000x1_S3300000x2_1_0_0_1 (broadcastInDim S100000x2 ![] bcast_S_S100000x2 (constant S_ .f32 0x00000000#32))
    (broadcastInDim S3300000x1 ![0] bcast_S3300000_S3300000x1_0 tgt)
    (mulf (broadcastInDim S3300000x2 ![0, 1] bcast_S3300000x1_S3300000x2_0_1 (broadcastInDim S3300000x1 ![0] bcast_S3300000_S3300000x1_0 nrm))
      (Host.gather gather_S100000x2_S3300000x1_S3300000x2_1_0_n_n_0_1_12 h (broadcastInDim S3300000x1 ![0] bcast_S3300000_S3300000x1_0 (wrap src))))

/-- The normalisation of every edge from the two graph inputs. -/
def normOf (e : (⟨S2x3200000, .i32⟩ : BufTy).Contents (Elt F)) (w : (⟨S3200000, .f32⟩ : BufTy).Contents (Elt F)) :
    (⟨S3300000, .f32⟩ : BufTy).Contents (Elt F) :=
  edgeNorm (dinvOf (degreePositive (degree (targets e) (weights w))) (Host.rsqrt (degree (targets e) (weights w))) (constant S_ .f32 0x00000000#32))
    (weights w) (sources e) (targets e)

end Cert.Gcn

end
-- ==== Proof.KernelHost.lean ====
/-
  The idealized kernel's host stretches, read against the pipeline's stages.

  Between the launch and the first region the host computes the edges' sources, targets and normalisation from the
  graph inputs; between the regions it runs one round of propagation on the region's result. A region writes only its
  own result, and no later operation rewrites an earlier value, so the sources, the targets and the normalisation
  are still what the first stretch left when the later stretches read them.
-/
import proofs.«177154_j22840636080474_1_alg».proof.Proof.Gen.KernelIdeal.Frame
import proofs.«177154_j22840636080474_1_alg».proof.Proof.Stages

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.Gcn

variable {F : FTy → Type} [FloatOps F]
variable (m : (ℓ : Loc nD τ sig) → Buf (Elt F) ℓ) (ρ : Dev nD → PrngReg)

/-! ## Before the first region -/

/-- At the first region's entry the sources buffer holds the sources. -/
theorem entry0_sources (c : Dev nD) :
    W3 m ρ c (Proc.devRef .tc main_v5) = sources (m ((c : Thread nD τ).loc main_arg1)) := by
  show StableHlo.after hostOps0_2 (StableHlo.after hostOps0_1 (StableHlo.after hostOps0 (W0 m ρ c))) (Proc.devRef .tc main_v5) = _
  after_results_simp
  rfl

/-- At the first region's entry the targets buffer holds the targets. -/
theorem entry0_targets (c : Dev nD) :
    W3 m ρ c (Proc.devRef .tc main_v6) = targets (m ((c : Thread nD τ).loc main_arg1)) := by
  show StableHlo.after hostOps0_2 (StableHlo.after hostOps0_1 (StableHlo.after hostOps0 (W0 m ρ c))) (Proc.devRef .tc main_v6) = _
  after_results_simp
  rfl

/-- At the first region's entry the normalisation buffer holds every edge's normalisation. -/
theorem entry0_norm (c : Dev nD) :
    W3 m ρ c (Proc.devRef .tc main_v31) = normOf (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  after_results_simp
  rfl

/-- At the first region's entry the feature table is as launched. -/
theorem entry0_features (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

/-- At the first region's entry the first weight matrix is as launched. -/
theorem entry0_weight (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

/-- The first bias, the second weight matrix and the second bias are as launched at the first region's entry. -/
theorem entry0_bias1 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem entry0_weight2 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp
theorem entry0_bias2 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

/-! ## Between the first and the second region -/

/-- The second region finds the first round of propagation of the first region's result. -/
theorem entry1_propagated (c : Dev nD) :
    W5 m ρ c (Proc.devRef .tc main_v45)
      = propagate16 (W4 m ρ c (Proc.devRef .tc main_v32)) (normOf (m ((c : Thread nD τ).loc main_arg1)) (m ((c : Thread nD τ).loc main_arg2)))
          (sources (m ((c : Thread nD τ).loc main_arg1))) (targets (m ((c : Thread nD τ).loc main_arg1))) := by
  have e : W5 m ρ c (Proc.devRef .tc main_v45)
      = propagate16 (W4 m ρ c (Proc.devRef .tc main_v32)) (W4 m ρ c (Proc.devRef .tc main_v31)) (W4 m ρ c (Proc.devRef .tc main_v5)) (W4 m ρ c (Proc.devRef .tc main_v6)) := by
    show StableHlo.after hostOps1 (W4 m ρ c) (Proc.devRef .tc main_v45) = _
    after_results_simp
    rfl
  rw [e, W4_of_ne m ρ c main_v31 (by decide), W4_of_ne m ρ c main_v5 (by decide), W4_of_ne m ρ c main_v6 (by decide),
    entry0_norm, entry0_sources, entry0_targets]

/-- The second region finds the first bias laid out as one row. -/
theorem entry1_bias (c : Dev nD) :
    W5 m ρ c (Proc.devRef .tc main_v46) = shapeCast S1x16 (m ((c : Thread nD τ).loc main_arg4)) Facts₀.shapeCasts_S16_S1x16 := by
  have e : W5 m ρ c (Proc.devRef .tc main_v46) = shapeCast S1x16 (W4 m ρ c (Proc.devRef .tc main_arg4)) Facts₀.shapeCasts_S16_S1x16 := by
    show StableHlo.after hostOps1 (W4 m ρ c) (Proc.devRef .tc main_v46) = _
    after_results_simp
    rfl
  rw [e, W4_of_ne m ρ c main_arg4 (by decide), entry0_bias1]

/-- The second region finds the second weight matrix as launched. -/
theorem entry1_weight (c : Dev nD) : W5 m ρ c (Proc.devRef .tc main_arg5) = m ((c : Thread nD τ).loc main_arg5) := by
  have e : W5 m ρ c (Proc.devRef .tc main_arg5) = W4 m ρ c (Proc.devRef .tc main_arg5) := by
    show StableHlo.after hostOps1 (W4 m ρ c) (Proc.devRef .tc main_arg5) = _
    after_results_simp
  rw [e, W4_of_ne m ρ c main_arg5 (by decide), entry0_weight2]

/-- What the first stretch computed is still there at the second region's entry. -/
theorem entry1_kept (c : Dev nD) :
    W5 m ρ c (Proc.devRef .tc main_v31) = normOf (m ((c : Thread nD τ).loc main_arg1)) (m ((c : Thread nD τ).loc main_arg2))
    ∧ W5 m ρ c (Proc.devRef .tc main_v5) = sources (m ((c : Thread nD τ).loc main_arg1))
    ∧ W5 m ρ c (Proc.devRef .tc main_v6) = targets (m ((c : Thread nD τ).loc main_arg1))
    ∧ W5 m ρ c (Proc.devRef .tc main_arg6) = m ((c : Thread nD τ).loc main_arg6) := by
  refine ⟨?_, ?_, ?_, ?_⟩
  · have e : W5 m ρ c (Proc.devRef .tc main_v31) = W4 m ρ c (Proc.devRef .tc main_v31) := by
      show StableHlo.after hostOps1 (W4 m ρ c) (Proc.devRef .tc main_v31) = _
      after_results_simp
    rw [e, W4_of_ne m ρ c main_v31 (by decide), entry0_norm]
  · have e : W5 m ρ c (Proc.devRef .tc main_v5) = W4 m ρ c (Proc.devRef .tc main_v5) := by
      show StableHlo.after hostOps1 (W4 m ρ c) (Proc.devRef .tc main_v5) = _
      after_results_simp
    rw [e, W4_of_ne m ρ c main_v5 (by decide), entry0_sources]
  · have e : W5 m ρ c (Proc.devRef .tc main_v6) = W4 m ρ c (Proc.devRef .tc main_v6) := by
      show StableHlo.after hostOps1 (W4 m ρ c) (Proc.devRef .tc main_v6) = _
      after_results_simp
    rw [e, W4_of_ne m ρ c main_v6 (by decide), entry0_targets]
  · have e : W5 m ρ c (Proc.devRef .tc main_arg6) = W4 m ρ c (Proc.devRef .tc main_arg6) := by
      show StableHlo.after hostOps1 (W4 m ρ c) (Proc.devRef .tc main_arg6) = _
      after_results_simp
    rw [e, W4_of_ne m ρ c main_arg6 (by decide), entry0_bias2]

/-! ## Between the second and the last region -/

/-- The last region finds the second round of propagation of the second region's result. -/
theorem entry2_propagated (c : Dev nD) :
    W7 m ρ c (Proc.devRef .tc main_v60)
      = propagate2 (W6 m ρ c (Proc.devRef .tc main_v47)) (normOf (m ((c : Thread nD τ).loc main_arg1)) (m ((c : Thread nD τ).loc main_arg2)))
          (sources (m ((c : Thread nD τ).loc main_arg1))) (targets (m ((c : Thread nD τ).loc main_arg1))) := by
  have e : W7 m ρ c (Proc.devRef .tc main_v60)
      = propagate2 (W6 m ρ c (Proc.devRef .tc main_v47)) (W6 m ρ c (Proc.devRef .tc main_v31)) (W6 m ρ c (Proc.devRef .tc main_v5)) (W6 m ρ c (Proc.devRef .tc main_v6)) := by
    show StableHlo.after hostOps2 (W6 m ρ c) (Proc.devRef .tc main_v60) = _
    after_results_simp
    rfl
  obtain ⟨k0, k1, k2, -⟩ := entry1_kept m ρ c
  rw [e, W6_of_ne m ρ c main_v31 (by decide), W6_of_ne m ρ c main_v5 (by decide), W6_of_ne m ρ c main_v6 (by decide), k0, k1, k2]

/-- The last region finds the second bias laid out as one row. -/
theorem entry2_bias (c : Dev nD) :
    W7 m ρ c (Proc.devRef .tc main_v61) = shapeCast S1x2 (m ((c : Thread nD τ).loc main_arg6)) Facts₀.shapeCasts_S2_S1x2 := by
  have e : W7 m ρ c (Proc.devRef .tc main_v61) = shapeCast S1x2 (W6 m ρ c (Proc.devRef .tc main_arg6)) Facts₀.shapeCasts_S2_S1x2 := by
    show StableHlo.after hostOps2 (W6 m ρ c) (Proc.devRef .tc main_v61) = _
    after_results_simp
    rfl
  rw [e, W6_of_ne m ρ c main_arg6 (by decide), (entry1_kept m ρ c).2.2.2]

end Cert.KernelIdeal.HostRead

end
-- ==== Proof.Dense0.lean ====
/-
  The first dense layer: the node features times the first weight matrix.

  The region walks the 100000 rows in 25 blocks of 4000. At each block it multiplies the block's rows of the feature
  table by the whole weight matrix (the narrowing of both factors is the identity on exact values, and the product
  into a zero accumulator is the plain sum of products) and writes the block's rows of the result. Row r of the
  result therefore is, column by column, the sum over the 512 features of row r's entries times the weight column's
  — one function of the two whole arrays, whatever the tiling — and the 25 blocks fill the result.
-/
import proofs.«177154_j22840636080474_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense0

open Idealize.ShloMosaic Idealize.ShloMosaic.TcCoe Idealize.SL.Sem
open Idealize.ShloMosaic.Pipeline (Dat Cfg Window)
open Cert.KernelIdeal Cert.KernelIdeal.Gen Cert.KernelIdeal.Facts₀ Cert.KernelIdeal.Facts

/-! ## The block's matrix product as a sum -/

/-- The left operand's row coordinate is the result's. -/
theorem blk_lhs0 (i : S4000x16.Idx) (q : dot_S4000x512_S512x16_S4000x16_1_0_0_1_n_n.contr.Idx) : (dot_S4000x512_S512x16_S4000x16_1_0_0_1_n_n.lhsIdx i q 0).val = (i 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
/-- The left operand's column coordinate is the contracted one. -/
theorem blk_lhs1 (i : S4000x16.Idx) (q : dot_S4000x512_S512x16_S4000x16_1_0_0_1_n_n.contr.Idx) : (dot_S4000x512_S512x16_S4000x16_1_0_0_1_n_n.lhsIdx i q 1).val = (q ⟨0, by decide⟩).val :=
  dot_S4000x512_S512x16_S4000x16_1_0_0_1_n_n.lhsIdx_val_of_single rfl i q
/-- The right operand's row coordinate is the contracted one. -/
theorem blk_rhs0 (i : S4000x16.Idx) (q : dot_S4000x512_S512x16_S4000x16_1_0_0_1_n_n.contr.Idx) : (dot_S4000x512_S512x16_S4000x16_1_0_0_1_n_n.rhsIdx i q 0).val = (q ⟨0, by decide⟩).val :=
  dot_S4000x512_S512x16_S4000x16_1_0_0_1_n_n.rhsIdx_val_of_single rfl i q
/-- The right operand's column coordinate is the result's. -/
theorem blk_rhs1 (i : S4000x16.Idx) (q : dot_S4000x512_S512x16_S4000x16_1_0_0_1_n_n.contr.Idx) : (dot_S4000x512_S512x16_S4000x16_1_0_0_1_n_n.rhsIdx i q 1).val = (i 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl
/-- Entry `k` of the result's row in the left operand. -/
abbrev blk_l (i : S4000x16.Idx) (k : Fin 512) : S4000x512.Idx := fun a => match a with
  | ⟨0, _⟩ => ⟨(i 0).val, (i 0).isLt⟩
  | ⟨1, _⟩ => ⟨k.val, k.isLt⟩
/-- Entry `k` of the result's column in the right operand. -/
abbrev blk_r (i : S4000x16.Idx) (k : Fin 512) : S512x16.Idx := fun a => match a with
  | ⟨0, _⟩ => ⟨k.val, k.isLt⟩
  | ⟨1, _⟩ => ⟨(i 1).val, (i 1).isLt⟩
/-- The contraction over the record's one contracted axis is the sum over its 512 coordinates of row entry times column entry. -/
theorem blk_contract (x : S4000x512.Idx → EReal) (w : S512x16.Idx → EReal) (i : S4000x16.Idx) :
    (∑ q : dot_S4000x512_S512x16_S4000x16_1_0_0_1_n_n.contr.Idx, x (dot_S4000x512_S512x16_S4000x16_1_0_0_1_n_n.lhsIdx i q) * w (dot_S4000x512_S512x16_S4000x16_1_0_0_1_n_n.rhsIdx i q)) = ∑ k : Fin 512, x (blk_l i k) * w (blk_r i k) := by
  rw [← Equiv.sum_comp (ValueIdx.contrEquiv1 dot_S4000x512_S512x16_S4000x16_1_0_0_1_n_n 512 rfl rfl).symm]
  refine Finset.sum_congr rfl fun k _ => ?_
  have hk := ValueIdx.contrEquiv1_symm_val dot_S4000x512_S512x16_S4000x16_1_0_0_1_n_n 512 rfl rfl k
  have el : dot_S4000x512_S512x16_S4000x16_1_0_0_1_n_n.lhsIdx i ((ValueIdx.contrEquiv1 dot_S4000x512_S512x16_S4000x16_1_0_0_1_n_n 512 rfl rfl).symm k) = blk_l i k := funext fun a => Fin.ext (by
    match a with
    | ⟨0, _⟩ => exact blk_lhs0 _ _
    | ⟨1, _⟩ => exact (blk_lhs1 _ _).trans hk)
  have er : dot_S4000x512_S512x16_S4000x16_1_0_0_1_n_n.rhsIdx i ((ValueIdx.contrEquiv1 dot_S4000x512_S512x16_S4000x16_1_0_0_1_n_n 512 rfl rfl).symm k) = blk_r i k := funext fun a => Fin.ext (by
    match a with
    | ⟨0, _⟩ => exact (blk_rhs0 _ _).trans hk
    | ⟨1, _⟩ => exact blk_rhs1 _ _)
  rw [el, er]

/-- The body's stored value at an index of the block: the sum over the features of the block's row times the weight's column. -/
theorem stored_apply (xb : Vec Ideal S4000x512 .f32) (wb : Vec Ideal S512x16 .f32) (j : S4000x16.Idx) :
    k0_pay1 xb wb j = ∑ k : Fin 512, xb (blk_l j k) * wb (blk_r j k) := by
  unfold k0_pay1
  refine (Ideal.matmul_constant_zero_apply dot_S4000x512_S512x16_S4000x16_1_0_0_1_n_n none _ _ j).trans ?_
  exact blk_contract xb wb j

/-! ## The whole product -/

/-- Entry `k` of row `i 0` of the feature table. -/
abbrev featAt (i : S100000x16.Idx) (k : Fin 512) : S100000x512.Idx := fun a => match a with
  | ⟨0, _⟩ => ⟨(i 0).val, (i 0).isLt⟩
  | ⟨1, _⟩ => ⟨k.val, k.isLt⟩
/-- Entry `k` of column `i 1` of the weight matrix. -/
abbrev weightAt (i : S100000x16.Idx) (k : Fin 512) : S512x16.Idx := fun a => match a with
  | ⟨0, _⟩ => ⟨k.val, k.isLt⟩
  | ⟨1, _⟩ => ⟨(i 1).val, (i 1).isLt⟩

/-- The feature table times the weight matrix, entry by entry. -/
def product (x : S100000x512.Idx → EReal) (w : S512x16.Idx → EReal) : S100000x16.Idx → EReal :=
  fun i => ∑ k : Fin 512, x (featAt i k) * w (weightAt i k)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: point `t` reads block row `t` of the features, the whole weight matrix, and writes
    block row `t` of the result. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x16) zero_offsets]
  obtain ⟨e0, e1, e2, e3, e4, e5⟩ := index_facts t
  funext j
  refine (stored_apply _ _ j).trans ?_
  have key : ∀ (X : S100000x512.Idx → EReal) (W : S512x16.Idx → EReal),
      (∑ k : Fin 512, X (((cfg0.win 0).blk t).view.emb (blk_l j k)) * W (((cfg0.win 1).blk t).view.emb (blk_r j k)))
        = ∑ k : Fin 512, X (featAt (((cfg0.win 2).blk t).view.emb j) k) * W (weightAt (((cfg0.win 2).blk t).view.emb j) k) := by
    intro X W
    refine Finset.sum_congr rfl fun k _ => ?_
    have h0 : ((cfg0.win 0).blk t).view.emb (blk_l j k) = featAt (((cfg0.win 2).blk t).view.emb j) k := by
      funext a; apply Fin.ext
      match a with
      | ⟨0, _⟩ => show win0_0.index t (0 : Fin 2) * 4000 + 1 * (j 0).val = win0_2.index t (0 : Fin 2) * 4000 + 1 * (j 0).val; omega
      | ⟨1, _⟩ => show win0_0.index t (1 : Fin 2) * 512 + 1 * k.val = k.val; omega
    have h1 : ((cfg0.win 1).blk t).view.emb (blk_r j k) = weightAt (((cfg0.win 2).blk t).view.emb j) k := by
      funext a; apply Fin.ext
      match a with
      | ⟨0, _⟩ => show win0_1.index t (0 : Fin 2) * 512 + 1 * k.val = k.val; omega
      | ⟨1, _⟩ => show win0_1.index t (1 : Fin 2) * 16 + 1 * (j 1).val = win0_2.index t (1 : Fin 2) * 16 + 1 * (j 1).val; omega
    rw [h0, h1]
  exact key (V c main_arg0) (V c main_arg3)

/-- An index of the result is in point `t`'s block iff each coordinate is in the block's range on its axis. -/
theorem mem_block (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- Row `r` of the result lies in the block of point `r / 4000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 4000 :=
    ⟨⟨(i 0).val / 4000, by have h : cfg0.N = 25 := N_0; rw [h]; omega⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The result array after the region: the whole product of the feature table and the weight matrix as the region found them. -/
theorem result_eq (c : Dev nD) : (dat0 V c).arrAt 2 cfg0.N = product (V c main_arg0) (V c main_arg3) :=
  (dat0 V c).arrAt_eq_of_cover 2 _ (fun t _ => flushed_eq V c t) covered

end Cert.KernelIdeal.Dense0

end
-- ==== Proof.Dense1.lean ====
/-
  The second dense layer: bias, rectifier, then the second weight matrix.

  The region walks the 100000 rows of the propagated hidden table in 25 blocks of 4000. At each block it adds the
  bias row to every row, takes the maximum with zero, and multiplies by the whole 16 x 2 weight matrix. Entry (r, q)
  of the result is the sum over the 16 hidden channels k of max(h[r, k] + b[k], 0) * w[k, q]: one function of the
  whole arrays, and the 25 blocks fill the result.
-/
import proofs.«177154_j22840636080474_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The block's matrix product as a sum -/

/-- The left operand's row coordinate is the result's. -/
theorem blk_lhs0 (i : S4000x2.Idx) (q : dot_S4000x16_S16x2_S4000x2_1_0_0_1_n_n.contr.Idx) : (dot_S4000x16_S16x2_S4000x2_1_0_0_1_n_n.lhsIdx i q 0).val = (i 0).val := by
  unfold DotDims.lhsIdx
  rw [dif_neg (show ¬(0 : Fin S4000x16.rank) ∈ dot_S4000x16_S16x2_S4000x2_1_0_0_1_n_n.lhsBatch by decide), dif_pos (show (0 : Fin S4000x16.rank) ∈ dot_S4000x16_S16x2_S4000x2_1_0_0_1_n_n.lhsNonContracting by decide)]
  rfl
/-- The left operand's column coordinate is the contracted one. -/
theorem blk_lhs1 (i : S4000x2.Idx) (q : dot_S4000x16_S16x2_S4000x2_1_0_0_1_n_n.contr.Idx) : (dot_S4000x16_S16x2_S4000x2_1_0_0_1_n_n.lhsIdx i q 1).val = (q ⟨0, by decide⟩).val :=
  dot_S4000x16_S16x2_S4000x2_1_0_0_1_n_n.lhsIdx_val_of_single rfl i q
/-- The right operand's row coordinate is the contracted one. -/
theorem blk_rhs0 (i : S4000x2.Idx) (q : dot_S4000x16_S16x2_S4000x2_1_0_0_1_n_n.contr.Idx) : (dot_S4000x16_S16x2_S4000x2_1_0_0_1_n_n.rhsIdx i q 0).val = (q ⟨0, by decide⟩).val :=
  dot_S4000x16_S16x2_S4000x2_1_0_0_1_n_n.rhsIdx_val_of_single rfl i q
/-- The right operand's column coordinate is the result's. -/
theorem blk_rhs1 (i : S4000x2.Idx) (q : dot_S4000x16_S16x2_S4000x2_1_0_0_1_n_n.contr.Idx) : (dot_S4000x16_S16x2_S4000x2_1_0_0_1_n_n.rhsIdx i q 1).val = (i 1).val := by
  unfold DotDims.rhsIdx
  rw [dif_neg (show ¬(1 : Fin S16x2.rank) ∈ dot_S4000x16_S16x2_S4000x2_1_0_0_1_n_n.rhsBatch by decide), dif_pos (show (1 : Fin S16x2.rank) ∈ dot_S4000x16_S16x2_S4000x2_1_0_0_1_n_n.rhsNonContracting by decide)]
  rfl
/-- Entry `k` of the result's row in the left operand. -/
abbrev blk_l (i : S4000x2.Idx) (k : Fin 16) : S4000x16.Idx := fun a => match a with
  | ⟨0, _⟩ => ⟨(i 0).val, (i 0).isLt⟩
  | ⟨1, _⟩ => ⟨k.val, k.isLt⟩
/-- Entry `k` of the result's column in the right operand. -/
abbrev blk_r (i : S4000x2.Idx) (k : Fin 16) : S16x2.Idx := fun a => match a with
  | ⟨0, _⟩ => ⟨k.val, k.isLt⟩
  | ⟨1, _⟩ => ⟨(i 1).val, (i 1).isLt⟩
/-- The contraction over the record's one contracted axis is the sum over its 16 coordinates of row entry times column entry. -/
theorem blk_contract (x : S4000x16.Idx → EReal) (w : S16x2.Idx → EReal) (i : S4000x2.Idx) :
    (∑ q : dot_S4000x16_S16x2_S4000x2_1_0_0_1_n_n.contr.Idx, x (dot_S4000x16_S16x2_S4000x2_1_0_0_1_n_n.lhsIdx i q) * w (dot_S4000x16_S16x2_S4000x2_1_0_0_1_n_n.rhsIdx i q)) = ∑ k : Fin 16, x (blk_l i k) * w (blk_r i k) := by
  rw [← Equiv.sum_comp (ValueIdx.contrEquiv1 dot_S4000x16_S16x2_S4000x2_1_0_0_1_n_n 16 rfl rfl).symm]
  refine Finset.sum_congr rfl fun k _ => ?_
  have hk := ValueIdx.contrEquiv1_symm_val dot_S4000x16_S16x2_S4000x2_1_0_0_1_n_n 16 rfl rfl k
  have el : dot_S4000x16_S16x2_S4000x2_1_0_0_1_n_n.lhsIdx i ((ValueIdx.contrEquiv1 dot_S4000x16_S16x2_S4000x2_1_0_0_1_n_n 16 rfl rfl).symm k) = blk_l i k := funext fun a => Fin.ext (by
    match a with
    | ⟨0, _⟩ => exact blk_lhs0 _ _
    | ⟨1, _⟩ => exact (blk_lhs1 _ _).trans hk)
  have er : dot_S4000x16_S16x2_S4000x2_1_0_0_1_n_n.rhsIdx i ((ValueIdx.contrEquiv1 dot_S4000x16_S16x2_S4000x2_1_0_0_1_n_n 16 rfl rfl).symm k) = blk_r i k := funext fun a => Fin.ext (by
    match a with
    | ⟨0, _⟩ => exact (blk_rhs0 _ _).trans hk
    | ⟨1, _⟩ => exact blk_rhs1 _ _)
  rw [el, er]

/-- A block's product into a zero accumulator, entry by entry. -/
theorem matmul_rows (a : FVec Ideal S4000x16 .bf16) (b : FVec Ideal S16x2 .bf16) (j : S4000x2.Idx) :
    matmul dot_S4000x16_S16x2_S4000x2_1_0_0_1_n_n none a b (constant S4000x2 .f32 0x00000000#32) j = ∑ k : Fin 16, a (blk_l j k) * b (blk_r j k) :=
  (Ideal.matmul_constant_zero_apply dot_S4000x16_S16x2_S4000x2_1_0_0_1_n_n none a b j).trans (blk_contract a b j)

/-- Channel `k` of the bias row. -/
abbrev biasRowAt (k : Fin 16) : S1x16.Idx := ix2 (0 : Fin 1) k

/-- The bias row spread over a block's rows reads, at channel `k` of any row, the row's channel `k`. -/
theorem spread_apply (bb : S1x16.Idx → EReal) (j : S4000x2.Idx) (k : Fin 16) :
    broadcastTo S4000x16 bb Facts₀.broadcasts_S1x16_S4000x16 (blk_l j k) = bb (biasRowAt k) := by
  refine broadcastTo_apply bb Facts₀.broadcasts_S1x16_S4000x16 (blk_l j k) (biasRowAt k) fun ax => ?_
  match ax with
  | ⟨0, _⟩ => rfl
  | ⟨1, _⟩ =>
    show k.val = if (16 : ℕ) = 1 then 0 else k.val
    rw [if_neg (by decide)]

/-- The body's stored value at an index of the block. -/
theorem stored_apply (hb : Vec Ideal S4000x16 .f32) (bb : Vec Ideal S1x16 .f32) (wb : Vec Ideal S16x2 .f32) (j : S4000x2.Idx) :
    k1_pay1 hb bb wb j = ∑ k : Fin 16, max (hb (blk_l j k) + bb (biasRowAt k)) (Ideal.ofBits .f32 0x00000000#32) * wb (blk_r j k) := by
  unfold k1_pay1
  refine (matmul_rows _ _ j).trans ?_
  refine Finset.sum_congr rfl fun k _ => ?_
  show max ((shapeCast S4000x16 hb Facts₀.shapeCasts_S4000x16_S4000x16) (blk_l j k) + (broadcastTo S4000x16 (shapeCast S1x16 bb Facts₀.shapeCasts_S1x16_S1x16) Facts₀.broadcasts_S1x16_S4000x16) (blk_l j k)) (Ideal.ofBits .f32 0x00000000#32) * wb (blk_r j k) = _
  rw [shapeCast_self, shapeCast_self, spread_apply]

/-! ## The whole layer -/

/-- Channel `k` of row `i 0` of the hidden table. -/
abbrev hiddenAt (i : S100000x2.Idx) (k : Fin 16) : S100000x16.Idx := fun a => match a with
  | ⟨0, _⟩ => ⟨(i 0).val, (i 0).isLt⟩
  | ⟨1, _⟩ => ⟨k.val, k.isLt⟩
/-- Channel `k` of column `i 1` of the weight matrix. -/
abbrev weightAt (i : S100000x2.Idx) (k : Fin 16) : S16x2.Idx := fun a => match a with
  | ⟨0, _⟩ => ⟨k.val, k.isLt⟩
  | ⟨1, _⟩ => ⟨(i 1).val, (i 1).isLt⟩

/-- The layer over whole arrays, the bias given as a row. -/
def layerRow (h : S100000x16.Idx → EReal) (brow : S1x16.Idx → EReal) (w : S16x2.Idx → EReal) : S100000x2.Idx → EReal :=
  fun i => ∑ k : Fin 16, max (h (hiddenAt i k) + brow (biasRowAt k)) (Ideal.ofBits .f32 0x00000000#32) * w (weightAt i k)

/-- The layer over whole arrays, the bias given as a vector. -/
def layer (h : S100000x16.Idx → EReal) (b : S16.Idx → EReal) (w : S16x2.Idx → EReal) : S100000x2.Idx → EReal :=
  fun i => ∑ k : Fin 16, max (h (hiddenAt i k) + b (ix1 k)) (Ideal.ofBits .f32 0x00000000#32) * w (weightAt i k)

/-- Laying the bias vector out as a row changes nothing. -/
theorem layerRow_of_vector (h : S100000x16.Idx → EReal) (b : S16.Idx → EReal) (w : S16x2.Idx → EReal) (hc : S16.ShapeCasts S1x16) :
    layerRow h (shapeCast S1x16 b hc) w = layer h b w := by
  funext i
  unfold layerRow layer
  refine Finset.sum_congr rfl fun k _ => ?_
  rw [show shapeCast S1x16 b hc (biasRowAt k) = b (ix1 k) from shapeCast_a_1a_apply b hc (0 : Fin 1) k]

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: point `t` reads block row `t` of the hidden table, the whole bias row and weight
    matrix, and writes block row `t` of the result. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole layer of the arrays the region finds. -/
theorem flushed_eq (c : Dev nD) (t : Fin cfg1.N) :
    (dat1 V c).flushed 3 t = ((cfg1.win 3).blk t).view.read (Elt Ideal) (layerRow (V c main_v45) (V c main_v46) (V c main_arg5)) := by
  show (cfg1.win 3).cut (grid1.coords t) ((dat1 V c).after 3 t) = _
  rw [after1_3]
  unfold out1_3
  rw [View.canon_unit_zero zero_offsets]
  simp only [View.ld_unit_zero (S := S4000x16) zero_offsets, View.ld_unit_zero (S := S1x16) zero_offsets, View.ld_unit_zero (S := S16x2) zero_offsets]
  obtain ⟨e0, e1, e2, e3, e4, e5, e6, e7⟩ := index_facts t
  funext j
  refine (stored_apply _ _ _ j).trans ?_
  have key : ∀ (H : S100000x16.Idx → EReal) (B : S1x16.Idx → EReal) (W : S16x2.Idx → EReal),
      (∑ k : Fin 16, max (H (((cfg1.win 0).blk t).view.emb (blk_l j k)) + B (((cfg1.win 1).blk t).view.emb (biasRowAt k))) (Ideal.ofBits .f32 0x00000000#32)
          * W (((cfg1.win 2).blk t).view.emb (blk_r j k)))
        = ∑ k : Fin 16, max (H (hiddenAt (((cfg1.win 3).blk t).view.emb j) k) + B (biasRowAt k)) (Ideal.ofBits .f32 0x00000000#32)
          * W (weightAt (((cfg1.win 3).blk t).view.emb j) k) := by
    intro H B W
    refine Finset.sum_congr rfl fun k _ => ?_
    have h0 : ((cfg1.win 0).blk t).view.emb (blk_l j k) = hiddenAt (((cfg1.win 3).blk t).view.emb j) k := by
      funext a; apply Fin.ext
      match a with
      | ⟨0, _⟩ => show win1_0.index t (0 : Fin 2) * 4000 + 1 * (j 0).val = win1_3.index t (0 : Fin 2) * 4000 + 1 * (j 0).val; omega
      | ⟨1, _⟩ => show win1_0.index t (1 : Fin 2) * 16 + 1 * k.val = k.val; omega
    have h1 : ((cfg1.win 1).blk t).view.emb (biasRowAt k) = biasRowAt k := by
      funext a; apply Fin.ext
      match a with
      | ⟨0, _⟩ => show win1_1.index t (0 : Fin 2) * 1 + 1 * 0 = 0; omega
      | ⟨1, _⟩ => show win1_1.index t (1 : Fin 2) * 16 + 1 * k.val = k.val; omega
    have h2 : ((cfg1.win 2).blk t).view.emb (blk_r j k) = weightAt (((cfg1.win 3).blk t).view.emb j) k := by
      funext a; apply Fin.ext
      match a with
      | ⟨0, _⟩ => show win1_2.index t (0 : Fin 2) * 16 + 1 * k.val = k.val; omega
      | ⟨1, _⟩ => show win1_2.index t (1 : Fin 2) * 2 + 1 * (j 1).val = win1_3.index t (1 : Fin 2) * 2 + 1 * (j 1).val; omega
    rw [h0, h1, h2]
  exact key (V c main_v45) (V c main_v46) (V c main_arg5)

/-- An index of the result is in point `t`'s block iff each coordinate is in the block's range on its axis. -/
theorem mem_block (t : Fin cfg1.N) (i : S100000x2.Idx) :
    i ∈ ((cfg1.win 3).blk t).view.set ↔ ∀ a : Fin 2, win1_3.index t a * S4000x2.size a ≤ (i a).val ∧ (i a).val < win1_3.index t a * S4000x2.size a + S4000x2.size a := by
  show i ∈ ((View.whole main_v47).slice (win1_3.rect t)).set ↔ _
  rw [View.set_slice_whole, Rect.mem_set_unit]
  exact Iff.rfl

/-- Row `r` of the result lies in the block of point `r / 4000`. -/
theorem covered (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  obtain ⟨t, ht⟩ : ∃ t : Fin cfg1.N, t.val = (i 0).val / 4000 :=
    ⟨⟨(i 0).val / 4000, by have h : cfg1.N = 25 := N_1; rw [h]; omega⟩, rfl⟩
  obtain ⟨e0, e1, e2, e3, e4, e5, e6, e7⟩ := index_facts t
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 2 ≤ (i 1).val ∧ (i 1).val < win1_3.index t (1 : Fin 2) * 2 + 2; omega

/-- The result array after the region: the whole layer of the arrays as the region found them. -/
theorem result_eq (c : Dev nD) : (dat1 V c).arrAt 3 cfg1.N = layerRow (V c main_v45) (V c main_v46) (V c main_arg5) :=
  (dat1 V c).arrAt_eq_of_cover 3 _ (fun t _ => flushed_eq V c t) covered

end Cert.KernelIdeal.Dense1

end
-- ==== Proof.Classify.lean ====
/-
  The last layer: the last bias, then the log-softmax of each node's pair of class scores.

  The region walks the 100000 rows of the propagated score table in 25 blocks of 4000. In each row it adds the bias,
  takes the row's maximum (from minus infinity), subtracts it, and subtracts the logarithm of the sum of the
  exponentials of the two shifted scores. Every entry of the result depends on its own row only: it is the
  log-softmax `lsm2` of the row's biased pair, one function of the whole arrays, and the 25 blocks fill the result.
-/
import proofs.«177154_j22840636080474_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Classify

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The log-softmax of a pair -/

/-- The larger of a pair of extended reals, taken from minus infinity. -/
def top2 (y : Fin 2 → EReal) : EReal := (Finset.univ : Finset (Fin 2)).fold max (Ideal.ofBits .f32 0xFF800000#32) y

/-- Entry `q` of the log-softmax of a pair: the entry minus the pair's maximum, minus the logarithm of the sum of the
    exponentials of the two entries so shifted. -/
def lsm2 (y : Fin 2 → EReal) (q : Fin 2) : EReal :=
  (y q - top2 y) - Ideal.log (∑ k : Fin 2, Ideal.exp (y k - top2 y))

/-! ## The body's value, piece by piece -/

/-- The block with the bias row added to every row. -/
def blkBiased (zb : Vec Ideal S4000x2 .f32) (bb : Vec Ideal S1x2 .f32) : FVec Ideal S4000x2 .f32 :=
  addf (shapeCast S4000x2 zb Facts₀.shapeCasts_S4000x2_S4000x2) (broadcastTo S4000x2 (shapeCast S1x2 bb Facts₀.shapeCasts_S1x2_S1x2) Facts₀.broadcasts_S1x2_S4000x2)
/-- Each row's maximum. -/
def blkMax (zb : Vec Ideal S4000x2 .f32) (bb : Vec Ideal S1x2 .f32) : FVec Ideal S4000 .f32 :=
  multiReduction .maximumf [1] S4000 (blkBiased zb bb) 0xFF800000#32 Facts₀.reduces_S4000x2_S4000 (.inl rfl) rfl
/-- Each entry minus its row's maximum. -/
def blkShifted (zb : Vec Ideal S4000x2 .f32) (bb : Vec Ideal S1x2 .f32) : FVec Ideal S4000x2 .f32 :=
  subf (blkBiased zb bb) (broadcastTo S4000x2 (shapeCast S4000x1 (blkMax zb bb) Facts₀.shapeCasts_S4000_S4000x1) Facts₀.broadcasts_S4000x1_S4000x2)
/-- Each row's sum of exponentials of shifted entries. -/
def blkSum (zb : Vec Ideal S4000x2 .f32) (bb : Vec Ideal S1x2 .f32) : FVec Ideal S4000 .f32 :=
  multiReduction .add [1] S4000 (exp (blkShifted zb bb)) 0x00000000#32 Facts₀.reduces_S4000x2_S4000 (.inl rfl) rfl

/-- The body's stored value is the shifted block minus the logarithm of the rows' sums. -/
theorem stored_eq (zb : Vec Ideal S4000x2 .f32) (bb : Vec Ideal S1x2 .f32) :
    k2_pay1 zb bb = subf (blkShifted zb bb)
      (broadcastTo S4000x2 (log (shapeCast S4000x1 (blkSum zb bb) Facts₀.shapeCasts_S4000_S4000x1)) Facts₀.broadcasts_S4000x1_S4000x2) := rfl

/-- A column spread over the two class columns reads, at any column of row `p`, the column's row `p`. -/
theorem spread_apply (u : FVec Ideal S4000x1 .f32) (p : Fin 4000) (q : Fin 2) :
    broadcastTo S4000x2 u Facts₀.broadcasts_S4000x1_S4000x2 (ix2 p q) = u (ix2 p (0 : Fin 1)) := by
  refine broadcastTo_apply u Facts₀.broadcasts_S4000x1_S4000x2 (ix2 p q) (ix2 p (0 : Fin 1)) fun ax => ?_
  match ax with
  | ⟨0, _⟩ =>
    show p.val = if (4000 : ℕ) = 1 then 0 else p.val
    rw [if_neg (by decide)]
  | ⟨1, _⟩ => rfl

/-- A vector of 4000 laid out as a column reads, at row `p`, the vector's entry `p`. -/
theorem column_apply (v : FVec Ideal S4000 .f32) (p : Fin 4000) :
    shapeCast S4000x1 v Facts₀.shapeCasts_S4000_S4000x1 (ix2 p (0 : Fin 1)) = v (ix1 p) :=
  shapeCast_apply v Facts₀.shapeCasts_S4000_S4000x1 (ix2 p (0 : Fin 1)) (ix1 p) (by
    rw [Shape.rowMajor_val_two, Shape.rowMajor_val_one]
    show p.val = p.val * 1 + 0
    omega)

/-- Row `p` of the block with coordinate `k` put back on the reduced axis is entry `(p, k)`. -/
theorem lift_row (p : Fin 4000) (k : Fin 2) : (Facts₀.reduces_S4000x2_S4000).lift (ix1 p) k = ix2 p k :=
  funext fun a => Fin.ext (by
    match a with
    | ⟨0, _⟩ => rfl
    | ⟨1, _⟩ => rfl)

theorem biased_apply (zb : Vec Ideal S4000x2 .f32) (bb : Vec Ideal S1x2 .f32) (p : Fin 4000) (q : Fin 2) :
    blkBiased zb bb (ix2 p q) = zb (ix2 p q) + bb (ix2 (0 : Fin 1) q) := by
  show (shapeCast S4000x2 zb Facts₀.shapeCasts_S4000x2_S4000x2) (ix2 p q)
    + (broadcastTo S4000x2 (shapeCast S1x2 bb Facts₀.shapeCasts_S1x2_S1x2) Facts₀.broadcasts_S1x2_S4000x2) (ix2 p q) = _
  rw [shapeCast_self, shapeCast_self]
  rw [show broadcastTo S4000x2 bb Facts₀.broadcasts_S1x2_S4000x2 (ix2 p q) = bb (ix2 (0 : Fin 1) q) from
    broadcastTo_1b_ab_apply bb Facts₀.broadcasts_S1x2_S4000x2 p q]

theorem max_apply (zb : Vec Ideal S4000x2 .f32) (bb : Vec Ideal S1x2 .f32) (p : Fin 4000) :
    blkMax zb bb (ix1 p) = top2 (fun k => blkBiased zb bb (ix2 p k)) := by
  unfold blkMax
  refine (Ideal.multiReduction_maximumf_single _ _ _ _ _ (ix1 p)).trans ?_
  show (Finset.univ : Finset (Fin 2)).fold max (Ideal.ofBits .f32 0xFF800000#32)
    (fun k : Fin 2 => blkBiased zb bb ((Facts₀.reduces_S4000x2_S4000).lift (ix1 p) k)) = _
  simp only [lift_row]
  rfl

theorem shifted_apply (zb : Vec Ideal S4000x2 .f32) (bb : Vec Ideal S1x2 .f32) (p : Fin 4000) (q : Fin 2) :
    blkShifted zb bb (ix2 p q) = blkBiased zb bb (ix2 p q) - top2 (fun k => blkBiased zb bb (ix2 p k)) := by
  show blkBiased zb bb (ix2 p q)
    - (broadcastTo S4000x2 (shapeCast S4000x1 (blkMax zb bb) Facts₀.shapeCasts_S4000_S4000x1) Facts₀.broadcasts_S4000x1_S4000x2) (ix2 p q) = _
  rw [spread_apply, column_apply, max_apply]

theorem sum_apply (zb : Vec Ideal S4000x2 .f32) (bb : Vec Ideal S1x2 .f32) (p : Fin 4000) :
    blkSum zb bb (ix1 p) = ∑ k : Fin 2, Ideal.exp (blkShifted zb bb (ix2 p k)) := by
  unfold blkSum
  refine (Ideal.multiReduction_add_single _ _ _ _ _ (ix1 p)).trans ?_
  show (∑ k : Fin 2, Ideal.exp (blkShifted zb bb ((Facts₀.reduces_S4000x2_S4000).lift (ix1 p) k))) = _
  simp only [lift_row]

/-- The body's stored value at entry `(p, q)` of the block: the log-softmax of row `p`'s biased pair. -/
theorem stored_apply (zb : Vec Ideal S4000x2 .f32) (bb : Vec Ideal S1x2 .f32) (p : Fin 4000) (q : Fin 2) :
    k2_pay1 zb bb (ix2 p q) = lsm2 (fun k => zb (ix2 p k) + bb (ix2 (0 : Fin 1) k)) q := by
  rw [stored_eq]
  show blkShifted zb bb (ix2 p q)
    - (broadcastTo S4000x2 (log (shapeCast S4000x1 (blkSum zb bb) Facts₀.shapeCasts_S4000_S4000x1)) Facts₀.broadcasts_S4000x1_S4000x2) (ix2 p q) = _
  rw [spread_apply]
  show blkShifted zb bb (ix2 p q) - Ideal.log ((shapeCast S4000x1 (blkSum zb bb) Facts₀.shapeCasts_S4000_S4000x1) (ix2 p (0 : Fin 1))) = _
  rw [column_apply, sum_apply]
  simp only [shifted_apply, biased_apply]
  rfl

/-! ## The whole layer -/

/-- Class `k` of row `i 0` of the score table. -/
abbrev scoreAt (i : S100000x2.Idx) (k : Fin 2) : S100000x2.Idx := fun a => match a with
  | ⟨0, _⟩ => ⟨(i 0).val, (i 0).isLt⟩
  | ⟨1, _⟩ => ⟨k.val, k.isLt⟩

/-- The layer over whole arrays, the bias given as a row. -/
def classifyRow (z : S100000x2.Idx → EReal) (brow : S1x2.Idx → EReal) : S100000x2.Idx → EReal :=
  fun i => lsm2 (fun k => z (scoreAt i k) + brow (ix2 (0 : Fin 1) k)) ⟨(i 1).val, (i 1).isLt⟩

/-- The layer over whole arrays, the bias given as a vector. -/
def classify (z : S100000x2.Idx → EReal) (b : S2.Idx → EReal) : S100000x2.Idx → EReal :=
  fun i => lsm2 (fun k => z (scoreAt i k) + b (ix1 k)) ⟨(i 1).val, (i 1).isLt⟩

/-- Laying the bias vector out as a row changes nothing. -/
theorem classifyRow_of_vector (z : S100000x2.Idx → EReal) (b : S2.Idx → EReal) (hc : S2.ShapeCasts S1x2) :
    classifyRow z (shapeCast S1x2 b hc) = classify z b := by
  funext i
  unfold classifyRow classify
  have e : ∀ k : Fin 2, shapeCast S1x2 b hc (ix2 (0 : Fin 1) k) = b (ix1 k) := fun k => shapeCast_a_1a_apply b hc (0 : Fin 1) k
  simp only [e]

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: point `t` reads block row `t` of the scores and the whole bias row, and writes
    block row `t` of the result. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole layer of the arrays the region finds. -/
theorem flushed_eq (c : Dev nD) (t : Fin cfg2.N) :
    (dat2 V c).flushed 2 t = ((cfg2.win 2).blk t).view.read (Elt Ideal) (classifyRow (V c main_v60) (V c main_v61)) := by
  show (cfg2.win 2).cut (grid2.coords t) ((dat2 V c).after 2 t) = _
  rw [after2_2]
  unfold out2_2
  rw [View.canon_unit_zero zero_offsets]
  simp only [View.ld_unit_zero (S := S4000x2) zero_offsets, View.ld_unit_zero (S := S1x2) zero_offsets]
  obtain ⟨e0, e1, e2, e3, e4, e5⟩ := index_facts t
  funext j
  obtain ⟨p, q, rfl⟩ : ∃ (p : Fin 4000) (q : Fin 2), j = ix2 p q := ⟨j 0, j 1, eq_ix2 j⟩
  refine (stored_apply _ _ p q).trans ?_
  have key : ∀ (Z : S100000x2.Idx → EReal) (B : S1x2.Idx → EReal),
      lsm2 (fun k => Z (((cfg2.win 0).blk t).view.emb (ix2 p k)) + B (((cfg2.win 1).blk t).view.emb (ix2 (0 : Fin 1) k))) q
        = lsm2 (fun k => Z (scoreAt (((cfg2.win 2).blk t).view.emb (ix2 p q)) k) + B (ix2 (0 : Fin 1) k))
            ⟨((((cfg2.win 2).blk t).view.emb (ix2 p q)) 1).val, ((((cfg2.win 2).blk t).view.emb (ix2 p q)) 1).isLt⟩ := by
    intro Z B
    have hq : (⟨((((cfg2.win 2).blk t).view.emb (ix2 p q)) 1).val, ((((cfg2.win 2).blk t).view.emb (ix2 p q)) 1).isLt⟩ : Fin 2) = q :=
      Fin.ext (by show win2_2.index t (1 : Fin 2) * 2 + 1 * q.val = q.val; omega)
    rw [hq]
    have h0 : ∀ k : Fin 2, ((cfg2.win 0).blk t).view.emb (ix2 p k) = scoreAt (((cfg2.win 2).blk t).view.emb (ix2 p q)) k := by
      intro k; funext a; apply Fin.ext
      match a with
      | ⟨0, _⟩ => show win2_0.index t (0 : Fin 2) * 4000 + 1 * p.val = win2_2.index t (0 : Fin 2) * 4000 + 1 * p.val; omega
      | ⟨1, _⟩ => show win2_0.index t (1 : Fin 2) * 2 + 1 * k.val = k.val; omega
    have h1 : ∀ k : Fin 2, ((cfg2.win 1).blk t).view.emb (ix2 (0 : Fin 1) k) = ix2 (0 : Fin 1) k := by
      intro k; funext a; apply Fin.ext
      match a with
      | ⟨0, _⟩ => show win2_1.index t (0 : Fin 2) * 1 + 1 * 0 = 0; omega
      | ⟨1, _⟩ => show win2_1.index t (1 : Fin 2) * 2 + 1 * k.val = k.val; omega
    simp only [h0, h1]
  exact key (V c main_v60) (V c main_v61)

/-- An index of the result is in point `t`'s block iff each coordinate is in the block's range on its axis. -/
theorem mem_block (t : Fin cfg2.N) (i : S100000x2.Idx) :
    i ∈ ((cfg2.win 2).blk t).view.set ↔ ∀ a : Fin 2, win2_2.index t a * S4000x2.size a ≤ (i a).val ∧ (i a).val < win2_2.index t a * S4000x2.size a + S4000x2.size a := by
  show i ∈ ((View.whole main_v62).slice (win2_2.rect t)).set ↔ _
  rw [View.set_slice_whole, Rect.mem_set_unit]
  exact Iff.rfl

/-- Row `r` of the result lies in the block of point `r / 4000`. -/
theorem covered (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ : ∃ t : Fin cfg2.N, t.val = (i 0).val / 4000 :=
    ⟨⟨(i 0).val / 4000, by have h : cfg2.N = 25 := N_2; rw [h]; omega⟩, rfl⟩
  obtain ⟨e0, e1, e2, e3, e4, e5⟩ := index_facts t
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 2 ≤ (i 1).val ∧ (i 1).val < win2_2.index t (1 : Fin 2) * 2 + 2; omega

/-- The result array after the region: the whole layer of the arrays as the region found them. -/
theorem result_eq (c : Dev nD) : (dat2 V c).arrAt 2 cfg2.N = classifyRow (V c main_v60) (V c main_v61) :=
  (dat2 V c).arrAt_eq_of_cover 2 _ (fun t _ => flushed_eq V c t) covered

end Cert.KernelIdeal.Classify

end
-- ==== Proof.KernelValue.lean ====
/-
  The idealized kernel's result as one function of its arguments.

  Reading the segment boundaries backwards from the last: the result buffer holds the last region's array, which is
  the log-softmax layer of what the region found — the second round of propagation of the second region's array, and
  the last bias as a row; the second region's array is the second dense layer of the first round of propagation of
  the first region's array; and the first region's array is the product of the feature table and the first weight
  matrix as launched. The normalisation, the sources and the targets are the first host stretch's, unchanged since.
-/
import proofs.«177154_j22840636080474_1_alg».proof.Proof.KernelRun
import proofs.«177154_j22840636080474_1_alg».proof.Proof.KernelHost
import proofs.«177154_j22840636080474_1_alg».proof.Proof.Dense0
import proofs.«177154_j22840636080474_1_alg».proof.Proof.Dense1
import proofs.«177154_j22840636080474_1_alg».proof.Proof.Classify

set_option maxRecDepth 16384

noncomputable section

namespace Cert.KernelIdeal.Whole

open Idealize.ShloMosaic Idealize.ShloMosaic.TcCoe Idealize.SL.Sem
open Cert.KernelIdeal Cert.KernelIdeal.Gen Cert.KernelIdeal.HostRead Cert.Gcn

variable (m : (ℓ : Loc nD τ sig) → Buf (Elt Ideal) ℓ) (ρ : Dev nD → PrngReg)

/-- The graph-convolution network over whole arrays: two rounds of (dense layer, propagation), then the
    log-softmax layer. -/
def result (x0 : S100000x512.Idx → EReal) (x1 : (⟨S2x3200000, .i32⟩ : BufTy).Contents (Elt Ideal)) (x2 : S3200000.Idx → EReal)
    (x3 : S512x16.Idx → EReal) (x4 : S16.Idx → EReal) (x5 : S16x2.Idx → EReal) (x6 : S2.Idx → EReal) : S100000x2.Idx → EReal :=
  Classify.classify
    (propagate2 (F := Ideal) (Dense1.layer (propagate16 (F := Ideal) (Dense0.product x0 x3) (normOf x1 x2) (sources x1) (targets x1)) x4 x5)
      (normOf x1 x2) (sources x1) (targets x1)) x6

/-- After the first region its result array is the product of the features and the first weight matrix. -/
theorem after_region0 (c : Dev nD) :
    W4 m ρ c (Proc.devRef .tc main_v32) = Dense0.product (m ((c : Thread nD τ).loc main_arg0)) (m ((c : Thread nD τ).loc main_arg3)) := by
  refine (W4_arr m ρ c 2).trans ?_
  refine (Dense0.result_eq (V3 m ρ) c).trans ?_
  show Dense0.product (W3 m ρ c (Proc.devRef .tc main_arg0)) (W3 m ρ c (Proc.devRef .tc main_arg3)) = _
  rw [entry0_features, entry0_weight]

/-- After the second region its result array is the second dense layer of the propagated first product. -/
theorem after_region1 (c : Dev nD) :
    W6 m ρ c (Proc.devRef .tc main_v47)
      = Dense1.layer (propagate16 (F := Ideal) (Dense0.product (m ((c : Thread nD τ).loc main_arg0)) (m ((c : Thread nD τ).loc main_arg3))) (normOf (m ((c : Thread nD τ).loc main_arg1)) (m ((c : Thread nD τ).loc main_arg2))) (sources (m ((c : Thread nD τ).loc main_arg1))) (targets (m ((c : Thread nD τ).loc main_arg1))))
          (m ((c : Thread nD τ).loc main_arg4)) (m ((c : Thread nD τ).loc main_arg5)) := by
  refine (W6_arr m ρ c 3).trans ?_
  refine (Dense1.result_eq (V5 m ρ) c).trans ?_
  show Dense1.layerRow (W5 m ρ c (Proc.devRef .tc main_v45)) (W5 m ρ c (Proc.devRef .tc main_v46)) (W5 m ρ c (Proc.devRef .tc main_arg5)) = _
  rw [entry1_propagated, entry1_bias, entry1_weight, Dense1.layerRow_of_vector, after_region0]

/-- After the last region the result buffer holds the network's value at the launch arguments. -/
theorem after_region2 (c : Dev nD) :
    W8 m ρ c (Proc.devRef .tc main_v62) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Classify.result_eq (V7 m ρ) c).trans ?_
  show Classify.classifyRow (W7 m ρ c (Proc.devRef .tc main_v60)) (W7 m ρ c (Proc.devRef .tc main_v61)) = _
  rw [entry2_propagated, entry2_bias, Classify.classifyRow_of_vector, after_region1]
  rfl

/-- Every weakly fair execution of the idealized kernel terminates, nothing faulting, with the result buffer at the
    network's value of the launch arguments and the arguments unchanged. -/
theorem run : θ_run defs (onTc (τ := τ) (main (F := Ideal))) ⟨m, fun _ => 0, ρ⟩ (fun r => ∀ c : Dev nD,
      r.2.mem ((c.tc : Thread nD τ).loc main_v62) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (after_region2 m ρ c), (h c).2⟩) (Cert.KernelIdeal.Result.run_named m ρ)

end Cert.KernelIdeal.Whole

end
-- ==== Proof.LibAfterAppend.lean ====
/-
  The contents after a line of host operations, for a line given as two lines one after the other: run the first,
  then the second from what the first leaves.
-/
import Idealize.ShloMosaic.Lib.StableHlo.Run

namespace Cert.Lib

open Idealize.ShloMosaic Idealize.ShloMosaic.StableHlo

/-- The buffer contents after the operations `a ++ b` are those after `b`, started from the contents after `a`. -/
theorem after_append {τ : Topo} {sig : RefSig} {Val : EltTy → Type} (a b : List (HloOp τ sig Val)) (V : Valuation τ sig Val) :
    after (a ++ b) V = after b (after a V) := by
  induction a generalizing V with
  | nil => rfl
  | cons op ops ih =>
    rw [List.cons_append, after_cons, after_cons]
    exact ih _

end Cert.Lib
-- ==== Proof.RefRun.lean ====
/-
  The idealized reference's run, read a stretch of host operations at a time.

  The reference is one straight line of 100 host operations. Cut into five stretches — the graph normalisation; the
  first dense layer and its round of propagation; bias, rectifier and the second dense layer; the second round of
  propagation; bias and row-wise log-softmax — each stretch's result is one function of the few buffers it reads, and
  no stretch rewrites a buffer a later stretch still reads. The graph stages are the same functions the kernel's
  host stretches compute (module Stages); the three dense stages are named here.
-/
import proofs.«177154_j22840636080474_1_alg».proof.Proof.RefOps
import proofs.«177154_j22840636080474_1_alg».proof.Proof.Stages
import proofs.«177154_j22840636080474_1_alg».proof.Proof.LibAfterAppend

set_option maxRecDepth 16384

noncomputable section

namespace Cert.ReferenceIdeal.HostRead

open Cert.ReferenceIdeal Cert.ReferenceIdeal.Gen Cert.ReferenceIdeal.ValueP Idealize.ShloMosaic Idealize.ShloMosaic.TcCoe Idealize.SL.Sem Idealize.ShloMosaic.StableHlo
open Cert.Gcn Cert.Lib

variable {F : FTy → Type} [FloatOps F]

/-! ## The dense stages -/

/-- The first dense layer: the node features times the first weight matrix. -/
def dense0 (x : (⟨S100000x512, .f32⟩ : BufTy).Contents (Elt F)) (w : (⟨S512x16, .f32⟩ : BufTy).Contents (Elt F)) : (⟨S100000x16, .f32⟩ : BufTy).Contents (Elt F) :=
  Host.dotGeneral dot_S100000x512_S512x16_S100000x16_1_0_0_1_n_n none x w

/-- The second dense layer: the bias added to every row, the maximum with zero, times the second weight matrix. -/
def dense1 (h : (⟨S100000x16, .f32⟩ : BufTy).Contents (Elt F)) (b : (⟨S16, .f32⟩ : BufTy).Contents (Elt F)) (w : (⟨S16x2, .f32⟩ : BufTy).Contents (Elt F)) :
    (⟨S100000x2, .f32⟩ : BufTy).Contents (Elt F) :=
  Host.dotGeneral dot_S100000x16_S16x2_S100000x2_1_0_0_1_n_n none
    (maximumf (addf h (broadcastInDim S100000x16 ![0, 1] Facts₀.bcast_S1x16_S100000x16_0_1 (broadcastInDim S1x16 ![1] Facts₀.bcast_S16_S1x16_1 b)))
      (broadcastInDim S100000x16 ![] Facts₀.bcast_S_S100000x16 (constant (F := F) S_ .f32 0x00000000#32))) w

/-- The class scores with the last bias added to every row. -/
def biased (z : (⟨S100000x2, .f32⟩ : BufTy).Contents (Elt F)) (b : (⟨S2, .f32⟩ : BufTy).Contents (Elt F)) : (⟨S100000x2, .f32⟩ : BufTy).Contents (Elt F) :=
  addf z (broadcastInDim S100000x2 ![0, 1] Facts₀.bcast_S1x2_S100000x2_0_1 (broadcastInDim S1x2 ![1] Facts₀.bcast_S2_S1x2_1 b))

/-- Each row's maximum (taken from minus infinity, and once more against minus infinity). -/
def rowMax (y : (⟨S100000x2, .f32⟩ : BufTy).Contents (Elt F)) : (⟨S100000, .f32⟩ : BufTy).Contents (Elt F) :=
  maximumf (broadcastInDim S100000 ![] Facts₀.bcast_S_S100000 (constant (F := F) S_ .f32 0xFF800000#32))
    (Host.reduce FloatOps.maximumf y (constant (F := F) S_ .f32 0xFF800000#32) Facts₀.reducesTo_S100000x2_S100000_d1 Facts₀.h_S_)

/-- Each entry minus its row's maximum. -/
def shifted (y : (⟨S100000x2, .f32⟩ : BufTy).Contents (Elt F)) : (⟨S100000x2, .f32⟩ : BufTy).Contents (Elt F) :=
  subf y (broadcastInDim S100000x2 ![0, 1] Facts₀.bcast_S100000x1_S100000x2_0_1 (broadcastInDim S100000x1 ![0] Facts₀.bcast_S100000_S100000x1_0 (rowMax y)))

/-- The row-wise log-softmax: the shifted entry minus the logarithm of the row's sum of exponentials of shifted entries. -/
def logSoftmax (y : (⟨S100000x2, .f32⟩ : BufTy).Contents (Elt F)) : (⟨S100000x2, .f32⟩ : BufTy).Contents (Elt F) :=
  subf (shifted y) (broadcastInDim S100000x2 ![0, 1] Facts₀.bcast_S100000x1_S100000x2_0_1
    (Host.log (broadcastInDim S100000x1 ![0] Facts₀.bcast_S100000_S100000x1_0
      (Host.reduceAdd (Host.exp (shifted y)) (constant (F := F) S_ .f32 0x00000000#32) Facts₀.reducesTo_S100000x2_S100000_d1 Facts₀.h_S_))))

/-- The reference's result as one function of its seven arguments. -/
def result (x0 : (⟨S100000x512, .f32⟩ : BufTy).Contents (Elt F)) (x1 : (⟨S2x3200000, .i32⟩ : BufTy).Contents (Elt F)) (x2 : (⟨S3200000, .f32⟩ : BufTy).Contents (Elt F))
    (x3 : (⟨S512x16, .f32⟩ : BufTy).Contents (Elt F)) (x4 : (⟨S16, .f32⟩ : BufTy).Contents (Elt F)) (x5 : (⟨S16x2, .f32⟩ : BufTy).Contents (Elt F))
    (x6 : (⟨S2, .f32⟩ : BufTy).Contents (Elt F)) : (⟨S100000x2, .f32⟩ : BufTy).Contents (Elt F) :=
  logSoftmax (biased (propagate2 (dense1 (propagate16 (dense0 x0 x3) (normOf x1 x2) (sources x1) (targets x1)) x4 x5) (normOf x1 x2) (sources x1) (targets x1)) x6)

/-! ## The five stretches -/

/-- The graph normalisation (through every edge's normalisation). -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v5 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v5 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]
/-- The first dense layer and its round of propagation. -/
abbrev opsB : List (HloOp τ sig (Elt F)) :=
  [ binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v5 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v5 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v5 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- Bias, rectifier and the second dense layer. -/
abbrev opsC : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)) ]
/-- The second round of propagation. -/
abbrev opsD : List (HloOp τ sig (Elt F)) :=
  [ unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v5 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v5 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v5 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v51 main_v59 (broadcastInDim S3300000x2 ![0, 1] bcast_S3300000x1_S3300000x2_0_1 : (⟨S3300000x1, .f32⟩ : BufTy).Contents (Elt F) → (⟨S3300000x2, .f32⟩ : BufTy).Contents (Elt F)),
    binary main_v59 main_v58 main_v60 (mulf : (⟨S3300000x2, .f32⟩ : BufTy).Contents (Elt F) → (⟨S3300000x2, .f32⟩ : BufTy).Contents (Elt F) → (⟨S3300000x2, .f32⟩ : BufTy).Contents (Elt F)),
    nullary main_cst_11 (constant S_ .f32 0x00000000#32),
    unary main_cst_11 main_v61 (broadcastInDim S100000x2 ![] bcast_S_S100000x2 : (⟨S_, .f32⟩ : BufTy).Contents (Elt F) → (⟨S100000x2, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]
/-- Bias and row-wise log-softmax. -/
abbrev opsE : List (HloOp τ sig (Elt F)) :=
  [ unary main_arg6 main_v64 (broadcastInDim S1x2 ![1] bcast_S2_S1x2_1 : (⟨S2, .f32⟩ : BufTy).Contents (Elt F) → (⟨S1x2, .f32⟩ : BufTy).Contents (Elt F)),
    unary main_v64 main_v65 (broadcastInDim S100000x2 ![0, 1] bcast_S1x2_S100000x2_0_1 : (⟨S1x2, .f32⟩ : BufTy).Contents (Elt F) → (⟨S100000x2, .f32⟩ : BufTy).Contents (Elt F)),
    binary main_v63 main_v65 main_v66 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call2_cst) (constant S_ .f32 0xFF800000#32),
    TRef.binary (TRef.of (T := ⟨S100000x2, .f32⟩) main_v66) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v66) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v67) subf ]

set_option maxHeartbeats 4000000 in
/-- @main's operations are the five stretches one after the other. -/
theorem ops_split : (ops : List (HloOp τ sig (Elt F))) = opsA ++ (opsB ++ (opsC ++ (opsD ++ opsE))) := rfl

/-! ### What each stretch computes, and what it leaves alone -/

theorem A_norm (W : Valuation τ sig (Elt F)) :
    after opsA W (Proc.devRef .tc main_v31) = normOf (W (Proc.devRef .tc main_arg1)) (W (Proc.devRef .tc main_arg2)) := by
  after_results_simp
  rfl
theorem A_sources (W : Valuation τ sig (Elt F)) : after opsA W (Proc.devRef .tc main_v5) = sources (W (Proc.devRef .tc main_arg1)) := by
  after_results_simp
  rfl
theorem A_targets (W : Valuation τ sig (Elt F)) : after opsA W (Proc.devRef .tc main_v6) = targets (W (Proc.devRef .tc main_arg1)) := by
  after_results_simp
  rfl
theorem A_keep_arg0 (W : Valuation τ sig (Elt F)) : after opsA W (Proc.devRef .tc main_arg0) = W (Proc.devRef .tc main_arg0) := by
  after_results_simp
theorem A_keep_arg3 (W : Valuation τ sig (Elt F)) : after opsA W (Proc.devRef .tc main_arg3) = W (Proc.devRef .tc main_arg3) := by
  after_results_simp
theorem A_keep_arg4 (W : Valuation τ sig (Elt F)) : after opsA W (Proc.devRef .tc main_arg4) = W (Proc.devRef .tc main_arg4) := by
  after_results_simp
theorem A_keep_arg5 (W : Valuation τ sig (Elt F)) : after opsA W (Proc.devRef .tc main_arg5) = W (Proc.devRef .tc main_arg5) := by
  after_results_simp
theorem A_keep_arg6 (W : Valuation τ sig (Elt F)) : after opsA W (Proc.devRef .tc main_arg6) = W (Proc.devRef .tc main_arg6) := by
  after_results_simp

theorem B_out (W : Valuation τ sig (Elt F)) :
    after opsB W (Proc.devRef .tc main_v45)
      = propagate16 (dense0 (W (Proc.devRef .tc main_arg0)) (W (Proc.devRef .tc main_arg3))) (W (Proc.devRef .tc main_v31)) (W (Proc.devRef .tc main_v5)) (W (Proc.devRef .tc main_v6)) := by
  after_results_simp
  rfl
theorem B_keep_v31 (W : Valuation τ sig (Elt F)) : after opsB W (Proc.devRef .tc main_v31) = W (Proc.devRef .tc main_v31) := by
  after_results_simp
theorem B_keep_v5 (W : Valuation τ sig (Elt F)) : after opsB W (Proc.devRef .tc main_v5) = W (Proc.devRef .tc main_v5) := by
  after_results_simp
theorem B_keep_v6 (W : Valuation τ sig (Elt F)) : after opsB W (Proc.devRef .tc main_v6) = W (Proc.devRef .tc main_v6) := by
  after_results_simp
theorem B_keep_arg4 (W : Valuation τ sig (Elt F)) : after opsB W (Proc.devRef .tc main_arg4) = W (Proc.devRef .tc main_arg4) := by
  after_results_simp
theorem B_keep_arg5 (W : Valuation τ sig (Elt F)) : after opsB W (Proc.devRef .tc main_arg5) = W (Proc.devRef .tc main_arg5) := by
  after_results_simp
theorem B_keep_arg6 (W : Valuation τ sig (Elt F)) : after opsB W (Proc.devRef .tc main_arg6) = W (Proc.devRef .tc main_arg6) := by
  after_results_simp

theorem C_out (W : Valuation τ sig (Elt F)) :
    after opsC W (Proc.devRef .tc main_v50) = dense1 (W (Proc.devRef .tc main_v45)) (W (Proc.devRef .tc main_arg4)) (W (Proc.devRef .tc main_arg5)) := by
  after_results_simp
  rfl
theorem C_keep_v31 (W : Valuation τ sig (Elt F)) : after opsC W (Proc.devRef .tc main_v31) = W (Proc.devRef .tc main_v31) := by
  after_results_simp
theorem C_keep_v5 (W : Valuation τ sig (Elt F)) : after opsC W (Proc.devRef .tc main_v5) = W (Proc.devRef .tc main_v5) := by
  after_results_simp
theorem C_keep_v6 (W : Valuation τ sig (Elt F)) : after opsC W (Proc.devRef .tc main_v6) = W (Proc.devRef .tc main_v6) := by
  after_results_simp
theorem C_keep_arg6 (W : Valuation τ sig (Elt F)) : after opsC W (Proc.devRef .tc main_arg6) = W (Proc.devRef .tc main_arg6) := by
  after_results_simp

theorem D_out (W : Valuation τ sig (Elt F)) :
    after opsD W (Proc.devRef .tc main_v63)
      = propagate2 (W (Proc.devRef .tc main_v50)) (W (Proc.devRef .tc main_v31)) (W (Proc.devRef .tc main_v5)) (W (Proc.devRef .tc main_v6)) := by
  after_results_simp
  rfl
theorem D_keep_arg6 (W : Valuation τ sig (Elt F)) : after opsD W (Proc.devRef .tc main_arg6) = W (Proc.devRef .tc main_arg6) := by
  after_results_simp

theorem E_out (W : Valuation τ sig (Elt F)) :
    after opsE W (Proc.devRef .tc main_v67) = logSoftmax (biased (W (Proc.devRef .tc main_v63)) (W (Proc.devRef .tc main_arg6))) := by
  after_results_simp
  -- a called function's values pass through transports along `type = type`: the identity
  simp only [TRef.ofBuf, TRef.toBuf, cast_eq]
  rfl

/-- The result buffer after the whole line, from any contents: the reference's function of the argument buffers. -/
theorem result_after (W : Valuation τ sig (Elt F)) :
    after ops W (Proc.devRef .tc main_v67)
      = result (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) := by
  rw [ops_split, after_append, after_append, after_append, after_append]
  rw [E_out, D_out, D_keep_arg6]
  rw [C_out, C_keep_v31, C_keep_v5, C_keep_v6, C_keep_arg6]
  rw [B_out, B_keep_v31, B_keep_v5, B_keep_v6, B_keep_arg4, B_keep_arg5, B_keep_arg6]
  rw [A_norm, A_sources, A_targets, A_keep_arg0, A_keep_arg3, A_keep_arg4, A_keep_arg5, A_keep_arg6]
  rfl

/-! ## The run -/

set_option maxRecDepth 65536 in
set_option maxHeartbeats 40000000 in
/-- From any memory with zero counters every weakly fair execution of the reference terminates, nothing faulting,
    with the result buffer at the reference's function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (result_after _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.HostRead

end
-- ==== Proof.RefDense.lean ====
/-
  The reference's dense stages are the kernel's whole-array functions.

  Read at an index over the extended reals: the host's general product with one contracted axis is the sum over that
  axis of row entry times column entry; a bias broadcast along the rows reads the bias at the column; the host's
  reductions of a row of two entries are the maximum from minus infinity (taking the maximum with minus infinity once
  more changes nothing) and zero plus the sum. So the reference's first product, its biased rectified second product
  and its log-softmax are, entry by entry, the three functions the kernel's regions were shown to compute.
-/
import proofs.«177154_j22840636080474_1_alg».proof.Proof.RefRun
import proofs.«177154_j22840636080474_1_alg».proof.Proof.Dense0
import proofs.«177154_j22840636080474_1_alg».proof.Proof.Dense1
import proofs.«177154_j22840636080474_1_alg».proof.Proof.Classify
import Idealize.ShloMosaic.Lib.Pipeline.Value
import Idealize.ShloMosaic.Lib.ValueIdx
import Idealize.ShloMosaic.PureOps.Ideal.Laws

set_option maxRecDepth 16384

noncomputable section

namespace Cert.ReferenceIdeal.DenseRead

open Idealize.ShloMosaic Idealize.ShloMosaic.ValueIdx
open Cert.ReferenceIdeal Cert.ReferenceIdeal.HostRead

/-! ## The first product -/

/-- The left operand's row coordinate is the result's. -/
theorem d0_lhs0 (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
/-- The left operand's column coordinate is the contracted one. -/
theorem d0_lhs1 (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
/-- The right operand's row coordinate is the contracted one. -/
theorem d0_rhs0 (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
/-- The right operand's column coordinate is the result's. -/
theorem d0_rhs1 (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl
/-- Entry `k` of the result's row in the left operand. -/
abbrev d0_l (i : S100000x16.Idx) (k : Fin 512) : S100000x512.Idx := fun a => match a with
  | ⟨0, _⟩ => ⟨(i 0).val, (i 0).isLt⟩
  | ⟨1, _⟩ => ⟨k.val, k.isLt⟩
/-- Entry `k` of the result's column in the right operand. -/
abbrev d0_r (i : S100000x16.Idx) (k : Fin 512) : S512x16.Idx := fun a => match a with
  | ⟨0, _⟩ => ⟨k.val, k.isLt⟩
  | ⟨1, _⟩ => ⟨(i 1).val, (i 1).isLt⟩
/-- The contraction over the record's one contracted axis is the sum over its 512 coordinates of row entry times column entry. -/
theorem d0_contract (x : S100000x512.Idx → EReal) (w : S512x16.Idx → EReal) (i : S100000x16.Idx) :
    (∑ q : dot_S100000x512_S512x16_S100000x16_1_0_0_1_n_n.contr.Idx, x (dot_S100000x512_S512x16_S100000x16_1_0_0_1_n_n.lhsIdx i q) * w (dot_S100000x512_S512x16_S100000x16_1_0_0_1_n_n.rhsIdx i q)) = ∑ k : Fin 512, x (d0_l i k) * w (d0_r i k) := by
  rw [← Equiv.sum_comp (ValueIdx.contrEquiv1 dot_S100000x512_S512x16_S100000x16_1_0_0_1_n_n 512 rfl rfl).symm]
  refine Finset.sum_congr rfl fun k _ => ?_
  have hk := ValueIdx.contrEquiv1_symm_val dot_S100000x512_S512x16_S100000x16_1_0_0_1_n_n 512 rfl rfl k
  have el : dot_S100000x512_S512x16_S100000x16_1_0_0_1_n_n.lhsIdx i ((ValueIdx.contrEquiv1 dot_S100000x512_S512x16_S100000x16_1_0_0_1_n_n 512 rfl rfl).symm k) = d0_l i k := funext fun a => Fin.ext (by
    match a with
    | ⟨0, _⟩ => exact d0_lhs0 _ _
    | ⟨1, _⟩ => exact (d0_lhs1 _ _).trans hk)
  have er : dot_S100000x512_S512x16_S100000x16_1_0_0_1_n_n.rhsIdx i ((ValueIdx.contrEquiv1 dot_S100000x512_S512x16_S100000x16_1_0_0_1_n_n 512 rfl rfl).symm k) = d0_r i k := funext fun a => Fin.ext (by
    match a with
    | ⟨0, _⟩ => exact (d0_rhs0 _ _).trans hk
    | ⟨1, _⟩ => exact d0_rhs1 _ _)
  rw [el, er]

/-- The reference's first dense layer is the whole product. -/
theorem dense0_eq (x : S100000x512.Idx → EReal) (w : S512x16.Idx → EReal) :
    dense0 (F := Ideal) x w = Cert.KernelIdeal.Dense0.product x w := by
  funext i
  unfold dense0
  simp only [Host.dotGeneral]
  rw [Ideal.dotGeneral_apply]
  exact d0_contract x w i

/-! ## The second layer -/

/-- The left operand's row coordinate is the result's. -/
theorem d1_lhs0 (i : S100000x2.Idx) (q : dot_S100000x16_S16x2_S100000x2_1_0_0_1_n_n.contr.Idx) : (dot_S100000x16_S16x2_S100000x2_1_0_0_1_n_n.lhsIdx i q 0).val = (i 0).val := by
  unfold DotDims.lhsIdx
  rw [dif_neg (show ¬(0 : Fin S100000x16.rank) ∈ dot_S100000x16_S16x2_S100000x2_1_0_0_1_n_n.lhsBatch by decide), dif_pos (show (0 : Fin S100000x16.rank) ∈ dot_S100000x16_S16x2_S100000x2_1_0_0_1_n_n.lhsNonContracting by decide)]
  rfl
/-- The left operand's column coordinate is the contracted one. -/
theorem d1_lhs1 (i : S100000x2.Idx) (q : dot_S100000x16_S16x2_S100000x2_1_0_0_1_n_n.contr.Idx) : (dot_S100000x16_S16x2_S100000x2_1_0_0_1_n_n.lhsIdx i q 1).val = (q ⟨0, by decide⟩).val :=
  dot_S100000x16_S16x2_S100000x2_1_0_0_1_n_n.lhsIdx_val_of_single rfl i q
/-- The right operand's row coordinate is the contracted one. -/
theorem d1_rhs0 (i : S100000x2.Idx) (q : dot_S100000x16_S16x2_S100000x2_1_0_0_1_n_n.contr.Idx) : (dot_S100000x16_S16x2_S100000x2_1_0_0_1_n_n.rhsIdx i q 0).val = (q ⟨0, by decide⟩).val :=
  dot_S100000x16_S16x2_S100000x2_1_0_0_1_n_n.rhsIdx_val_of_single rfl i q
/-- The right operand's column coordinate is the result's. -/
theorem d1_rhs1 (i : S100000x2.Idx) (q : dot_S100000x16_S16x2_S100000x2_1_0_0_1_n_n.contr.Idx) : (dot_S100000x16_S16x2_S100000x2_1_0_0_1_n_n.rhsIdx i q 1).val = (i 1).val := by
  unfold DotDims.rhsIdx
  rw [dif_neg (show ¬(1 : Fin S16x2.rank) ∈ dot_S100000x16_S16x2_S100000x2_1_0_0_1_n_n.rhsBatch by decide), dif_pos (show (1 : Fin S16x2.rank) ∈ dot_S100000x16_S16x2_S100000x2_1_0_0_1_n_n.rhsNonContracting by decide)]
  rfl
/-- Entry `k` of the result's row in the left operand. -/
abbrev d1_l (i : S100000x2.Idx) (k : Fin 16) : S100000x16.Idx := fun a => match a with
  | ⟨0, _⟩ => ⟨(i 0).val, (i 0).isLt⟩
  | ⟨1, _⟩ => ⟨k.val, k.isLt⟩
/-- Entry `k` of the result's column in the right operand. -/
abbrev d1_r (i : S100000x2.Idx) (k : Fin 16) : S16x2.Idx := fun a => match a with
  | ⟨0, _⟩ => ⟨k.val, k.isLt⟩
  | ⟨1, _⟩ => ⟨(i 1).val, (i 1).isLt⟩
/-- The contraction over the record's one contracted axis is the sum over its 16 coordinates of row entry times column entry. -/
theorem d1_contract (x : S100000x16.Idx → EReal) (w : S16x2.Idx → EReal) (i : S100000x2.Idx) :
    (∑ q : dot_S100000x16_S16x2_S100000x2_1_0_0_1_n_n.contr.Idx, x (dot_S100000x16_S16x2_S100000x2_1_0_0_1_n_n.lhsIdx i q) * w (dot_S100000x16_S16x2_S100000x2_1_0_0_1_n_n.rhsIdx i q)) = ∑ k : Fin 16, x (d1_l i k) * w (d1_r i k) := by
  rw [← Equiv.sum_comp (ValueIdx.contrEquiv1 dot_S100000x16_S16x2_S100000x2_1_0_0_1_n_n 16 rfl rfl).symm]
  refine Finset.sum_congr rfl fun k _ => ?_
  have hk := ValueIdx.contrEquiv1_symm_val dot_S100000x16_S16x2_S100000x2_1_0_0_1_n_n 16 rfl rfl k
  have el : dot_S100000x16_S16x2_S100000x2_1_0_0_1_n_n.lhsIdx i ((ValueIdx.contrEquiv1 dot_S100000x16_S16x2_S100000x2_1_0_0_1_n_n 16 rfl rfl).symm k) = d1_l i k := funext fun a => Fin.ext (by
    match a with
    | ⟨0, _⟩ => exact d1_lhs0 _ _
    | ⟨1, _⟩ => exact (d1_lhs1 _ _).trans hk)
  have er : dot_S100000x16_S16x2_S100000x2_1_0_0_1_n_n.rhsIdx i ((ValueIdx.contrEquiv1 dot_S100000x16_S16x2_S100000x2_1_0_0_1_n_n 16 rfl rfl).symm k) = d1_r i k := funext fun a => Fin.ext (by
    match a with
    | ⟨0, _⟩ => exact (d1_rhs0 _ _).trans hk
    | ⟨1, _⟩ => exact d1_rhs1 _ _)
  rw [el, er]

/-- The bias spread over the rows reads, at channel `k` of any row, the bias's channel `k`. -/
theorem bias16_apply (b : S16.Idx → EReal) (i : S100000x2.Idx) (k : Fin 16) :
    broadcastInDim S100000x16 ![0, 1] Facts₀.bcast_S1x16_S100000x16_0_1 (broadcastInDim S1x16 ![1] Facts₀.bcast_S16_S1x16_1 b) (d1_l i k) = b (ix1 k) := by
  refine (broadcastInDim_apply ![0, 1] Facts₀.bcast_S1x16_S100000x16_0_1 _ (d1_l i k) (ix2 (0 : Fin 1) k) fun a => ?_).trans ?_
  · match a with
    | ⟨0, _⟩ => rfl
    | ⟨1, _⟩ =>
      show k.val = if (16 : ℕ) = 1 then 0 else k.val
      rw [if_neg (by decide)]
  · refine broadcastInDim_apply ![1] Facts₀.bcast_S16_S1x16_1 b (ix2 (0 : Fin 1) k) (ix1 k) fun a => ?_
    match a with
    | ⟨0, _⟩ =>
      show k.val = if (16 : ℕ) = 1 then 0 else k.val
      rw [if_neg (by decide)]

/-- The zero spread over the table reads zero's word everywhere. -/
theorem zero16_apply (j : S100000x16.Idx) :
    broadcastInDim S100000x16 ![] Facts₀.bcast_S_S100000x16 (constant (F := Ideal) S_ .f32 0x00000000#32) j = Ideal.ofBits .f32 0x00000000#32 :=
  broadcastInDim_apply ![] Facts₀.bcast_S_S100000x16 _ j ix0 (fun a => a.elim0)

/-- The reference's second dense layer is the whole layer. -/
theorem dense1_eq (h : S100000x16.Idx → EReal) (b : S16.Idx → EReal) (w : S16x2.Idx → EReal) :
    dense1 (F := Ideal) h b w = Cert.KernelIdeal.Dense1.layer h b w := by
  funext i
  unfold dense1
  simp only [Host.dotGeneral]
  rw [Ideal.dotGeneral_apply]
  refine (d1_contract _ w i).trans ?_
  unfold Cert.KernelIdeal.Dense1.layer
  refine Finset.sum_congr rfl fun k _ => ?_
  show max (h (d1_l i k) + (broadcastInDim S100000x16 ![0, 1] Facts₀.bcast_S1x16_S100000x16_0_1 (broadcastInDim S1x16 ![1] Facts₀.bcast_S16_S1x16_1 b)) (d1_l i k))
      ((broadcastInDim S100000x16 ![] Facts₀.bcast_S_S100000x16 (constant (F := Ideal) S_ .f32 0x00000000#32)) (d1_l i k)) * w (d1_r i k) = _
  rw [bias16_apply, zero16_apply]
  rfl

/-! ## The log-softmax -/

/-- Minus infinity's word is the least extended real. -/
theorem neg_inf : Ideal.ofBits .f32 0xFF800000#32 = (⊥ : EReal) := by simp [Ideal.ofBits, Ideal.ieee]

/-- A column spread over the two class columns reads, at any column of row `r`, the column's row `r`. -/
theorem spread2_apply (u : S100000x1.Idx → EReal) (r : Fin 100000) (q : Fin 2) :
    broadcastInDim S100000x2 ![0, 1] Facts₀.bcast_S100000x1_S100000x2_0_1 u (ix2 r q) = u (ix2 r (0 : Fin 1)) := by
  refine broadcastInDim_apply ![0, 1] Facts₀.bcast_S100000x1_S100000x2_0_1 u (ix2 r q) (ix2 r (0 : Fin 1)) fun a => ?_
  match a with
  | ⟨0, _⟩ =>
    show r.val = if (100000 : ℕ) = 1 then 0 else r.val
    rw [if_neg (by decide)]
  | ⟨1, _⟩ => rfl

/-- A vector over the rows laid out as a column reads, at row `r`, the vector's entry `r`. -/
theorem column2_apply (v : S100000.Idx → EReal) (r : Fin 100000) :
    broadcastInDim S100000x1 ![0] Facts₀.bcast_S100000_S100000x1_0 v (ix2 r (0 : Fin 1)) = v (ix1 r) := by
  refine broadcastInDim_apply ![0] Facts₀.bcast_S100000_S100000x1_0 v (ix2 r (0 : Fin 1)) (ix1 r) fun a => ?_
  match a with
  | ⟨0, _⟩ =>
    show r.val = if (100000 : ℕ) = 1 then 0 else r.val
    rw [if_neg (by decide)]

/-- The last bias spread over the rows reads the bias at the entry's class. -/
theorem bias2_apply (b : S2.Idx → EReal) (r : Fin 100000) (q : Fin 2) :
    broadcastInDim S100000x2 ![0, 1] Facts₀.bcast_S1x2_S100000x2_0_1 (broadcastInDim S1x2 ![1] Facts₀.bcast_S2_S1x2_1 b) (ix2 r q) = b (ix1 q) := by
  refine (broadcastInDim_apply ![0, 1] Facts₀.bcast_S1x2_S100000x2_0_1 _ (ix2 r q) (ix2 (0 : Fin 1) q) fun a => ?_).trans ?_
  · match a with
    | ⟨0, _⟩ => rfl
    | ⟨1, _⟩ =>
      show q.val = if (2 : ℕ) = 1 then 0 else q.val
      rw [if_neg (by decide)]
  · refine broadcastInDim_apply ![1] Facts₀.bcast_S2_S1x2_1 b (ix2 (0 : Fin 1) q) (ix1 q) fun a => ?_
    match a with
    | ⟨0, _⟩ =>
      show q.val = if (2 : ℕ) = 1 then 0 else q.val
      rw [if_neg (by decide)]

theorem biased_apply (z : S100000x2.Idx → EReal) (b : S2.Idx → EReal) (r : Fin 100000) (q : Fin 2) :
    biased (F := Ideal) z b (ix2 r q) = z (ix2 r q) + b (ix1 q) := by
  show z (ix2 r q) + (broadcastInDim S100000x2 ![0, 1] Facts₀.bcast_S1x2_S100000x2_0_1 (broadcastInDim S1x2 ![1] Facts₀.bcast_S2_S1x2_1 b)) (ix2 r q) = _
  rw [bias2_apply]

/-- Row `r` with coordinate `k` put back on the reduced axis is entry `(r, k)`. -/
theorem lift_row (hr : S100000x2.Reduces [1] S100000) (r : Fin 100000) (k : Fin 2) : hr.lift (ix1 r) k = ix2 r k :=
  funext fun a => Fin.ext (by
    match a with
    | ⟨0, _⟩ => rfl
    | ⟨1, _⟩ => rfl)

/-- Each row's maximum is the larger of its pair, from minus infinity: the maximum with minus infinity once more
    changes nothing. -/
theorem rowMax_apply (y : S100000x2.Idx → EReal) (r : Fin 100000) :
    rowMax (F := Ideal) y (ix1 r) = Cert.KernelIdeal.Classify.top2 (fun k => y (ix2 r k)) := by
  have hr : S100000x2.Reduces [1] S100000 := by decide
  have e := Host.reduce_eq_fold_single (FloatOps.maximumf (F := Ideal) (φ := .f32)) y (constant (F := Ideal) S_ .f32 0xFF800000#32)
    Facts₀.reducesTo_S100000x2_S100000_d1 hr Facts₀.h_S_ (ix1 r)
  have e0 : (broadcastInDim S100000 ![] Facts₀.bcast_S_S100000 (constant (F := Ideal) S_ .f32 0xFF800000#32)) (ix1 r) = Ideal.ofBits .f32 0xFF800000#32 :=
    broadcastInDim_apply ![] Facts₀.bcast_S_S100000 _ (ix1 r) ix0 (fun a => a.elim0)
  show max ((broadcastInDim S100000 ![] Facts₀.bcast_S_S100000 (constant (F := Ideal) S_ .f32 0xFF800000#32)) (ix1 r))
      (Host.reduce FloatOps.maximumf y (constant (F := Ideal) S_ .f32 0xFF800000#32) Facts₀.reducesTo_S100000x2_S100000_d1 Facts₀.h_S_ (ix1 r)) = _
  refine (congrArg₂ max e0 e).trans ?_
  show max (Ideal.ofBits .f32 0xFF800000#32)
      ((Finset.univ : Finset (Fin 2)).fold max (Ideal.ofBits .f32 0xFF800000#32) (fun k : Fin 2 => y (hr.lift (ix1 r) k))) = _
  simp only [lift_row]
  refine (max_eq_right ?_).trans rfl
  rw [neg_inf]
  exact bot_le

theorem shifted_apply (y : S100000x2.Idx → EReal) (r : Fin 100000) (q : Fin 2) :
    shifted (F := Ideal) y (ix2 r q) = y (ix2 r q) - Cert.KernelIdeal.Classify.top2 (fun k => y (ix2 r k)) := by
  show y (ix2 r q) - (broadcastInDim S100000x2 ![0, 1] Facts₀.bcast_S100000x1_S100000x2_0_1 (broadcastInDim S100000x1 ![0] Facts₀.bcast_S100000_S100000x1_0 (rowMax (F := Ideal) y))) (ix2 r q) = _
  rw [spread2_apply, column2_apply, rowMax_apply]

/-- Each row's sum of exponentials, started from zero. -/
theorem rowSum_apply (y : S100000x2.Idx → EReal) (r : Fin 100000) :
    (Host.reduceAdd (Host.exp (shifted (F := Ideal) y)) (constant (F := Ideal) S_ .f32 0x00000000#32) Facts₀.reducesTo_S100000x2_S100000_d1 Facts₀.h_S_) (ix1 r) = ∑ k : Fin 2, Ideal.exp (shifted (F := Ideal) y (ix2 r k)) := by
  have hr : S100000x2.Reduces [1] S100000 := by decide
  simp only [Host.reduceAdd, Ideal.hostReduceAdd_def]
  rw [Ideal.hostReduceAdd_single Facts₀.reducesTo_S100000x2_S100000_d1 hr]
  show Ideal.ofBits .f32 0x00000000#32 + (∑ k : Fin 2, Ideal.exp (shifted (F := Ideal) y (hr.lift (ix1 r) k))) = _
  simp only [lift_row]
  rw [Ideal.ofBits_zero_f32, zero_add]

/-- The host's logarithm of a vector, read at an index. -/
theorem hostLog_apply {s : Shape} (x : s.Idx → EReal) (i : s.Idx) : Host.log (F := Ideal) (φ := .f32) x i = Ideal.log (x i) := rfl

/-- The reference's log-softmax at entry `(r, q)`: the log-softmax of row `r`'s pair. -/
theorem logSoftmax_apply (y : S100000x2.Idx → EReal) (r : Fin 100000) (q : Fin 2) :
    logSoftmax (F := Ideal) y (ix2 r q) = Cert.KernelIdeal.Classify.lsm2 (fun k => y (ix2 r k)) q := by
  show shifted (F := Ideal) y (ix2 r q) - (broadcastInDim S100000x2 ![0, 1] Facts₀.bcast_S100000x1_S100000x2_0_1 (Host.log (broadcastInDim S100000x1 ![0] Facts₀.bcast_S100000_S100000x1_0 (Host.reduceAdd (Host.exp (shifted (F := Ideal) y)) (constant (F := Ideal) S_ .f32 0x00000000#32) Facts₀.reducesTo_S100000x2_S100000_d1 Facts₀.h_S_)))) (ix2 r q) = _
  rw [spread2_apply, hostLog_apply]
  rw [column2_apply, rowSum_apply]
  simp only [shifted_apply]
  rfl

/-- The reference's log-softmax of the biased scores is the whole last layer. -/
theorem logSoftmax_eq (z : S100000x2.Idx → EReal) (b : S2.Idx → EReal) :
    logSoftmax (F := Ideal) (biased (F := Ideal) z b) = Cert.KernelIdeal.Classify.classify z b := by
  funext i
  obtain ⟨r, q, rfl⟩ : ∃ (r : Fin 100000) (q : Fin 2), i = ix2 r q := ⟨i 0, i 1, eq_ix2 i⟩
  rw [logSoftmax_apply]
  unfold Cert.KernelIdeal.Classify.classify
  have hs : ∀ k : Fin 2, Cert.KernelIdeal.Classify.scoreAt (ix2 r q) k = ix2 r k := fun k => funext fun a => Fin.ext (by
    match a with
    | ⟨0, _⟩ => rfl
    | ⟨1, _⟩ => rfl)
  simp only [biased_apply, hs]

end Cert.ReferenceIdeal.DenseRead

end
-- ==== Proof.Bridge.lean ====
/-
  The kernel's network and the reference's are one function of the arguments.

  Both are the same composition: the graph stages are shared, and the reference's three dense stages are the
  kernel's three whole-array functions (first product, biased rectified second product, biased log-softmax).
-/
import proofs.«177154_j22840636080474_1_alg».proof.Proof.KernelValue
import proofs.«177154_j22840636080474_1_alg».proof.Proof.RefDense

set_option maxRecDepth 16384

noncomputable section

namespace Cert.Bridge

open Idealize.ShloMosaic

/-- The reference's function of the seven arguments is the kernel's. -/
theorem result_eq (x0 : Cert.KernelIdeal.S100000x512.Idx → EReal) (x1 : (⟨Cert.KernelIdeal.S2x3200000, .i32⟩ : BufTy).Contents (Elt Ideal))
    (x2 : Cert.KernelIdeal.S3200000.Idx → EReal) (x3 : Cert.KernelIdeal.S512x16.Idx → EReal) (x4 : Cert.KernelIdeal.S16.Idx → EReal)
    (x5 : Cert.KernelIdeal.S16x2.Idx → EReal) (x6 : Cert.KernelIdeal.S2.Idx → EReal) :
    Cert.ReferenceIdeal.HostRead.result (F := Ideal) x0 x1 x2 x3 x4 x5 x6 = Cert.KernelIdeal.Whole.result x0 x1 x2 x3 x4 x5 x6 := by
  unfold Cert.ReferenceIdeal.HostRead.result Cert.KernelIdeal.Whole.result
  rw [Cert.ReferenceIdeal.DenseRead.logSoftmax_eq, Cert.ReferenceIdeal.DenseRead.dense1_eq, Cert.ReferenceIdeal.DenseRead.dense0_eq]

end Cert.Bridge

end
-- ==== Proof.lean ====
/-
  The certificate of a two-layer graph-convolution network's kernel against its jnp reference.

  The kernel runs the two dense layers and the final bias + log-softmax as three row-tiled regions (25 blocks of 4000
  nodes each) and leaves the graph work — self-loops, degrees, symmetric edge normalisation, and the two rounds of
  gather / scale / scatter-add propagation — to host operations; the reference does everything on the host.

  * The three frames: the kernel's two are the generated frame certificates; the reference's is its run with the
    result dropped.
  * `preserves`: the idealization rewrote nothing, so there is nothing to restate.
  * `algebraic`: over the extended reals both programs compute one function of the seven arguments. The host
    stages between the dense layers are the same operations in both programs and are compared as wholes. Each
    region's array is a row-wise function of the arrays it reads, so the tiling disappears: the first is the product
    x · W1 (the narrowing to bf16 is the identity on exact values, and a product into a zero accumulator is the sum
    of products, as the host's general product is); the second is max(h + b1, 0) · W2; the last is the log-softmax of
    each biased pair of scores, where the reference's extra maximum with minus infinity and its sum started from zero
    change nothing. No law needing finiteness is used, so the precondition is never opened.
-/
import proofs.«177154_j22840636080474_1_alg».proof.Defs
import proofs.«177154_j22840636080474_1_alg».proof.Proof.Gen.Kernel
import proofs.«177154_j22840636080474_1_alg».proof.Proof.Gen.Kernel.Frame
import proofs.«177154_j22840636080474_1_alg».proof.Proof.Gen.KernelIdeal
import proofs.«177154_j22840636080474_1_alg».proof.Proof.Gen.KernelIdeal.Frame
import proofs.«177154_j22840636080474_1_alg».proof.Proof.Gen.ReferenceIdeal
import proofs.«177154_j22840636080474_1_alg».proof.Proof.Gen.Pre_finite_inputs
import proofs.«177154_j22840636080474_1_alg».proof.Proof.KernelValue
import proofs.«177154_j22840636080474_1_alg».proof.Proof.RefRun
import proofs.«177154_j22840636080474_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.HostRead.run (F := Ideal) m ρ)

/-- The ideal pass rewrote no operation. -/
theorem preserves : Cert.preserves_Kernel_KernelIdeal := trivial

/-- Both runs end with the result at the network's value of the (agreeing) arguments. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.HostRead.run (F := Ideal) m' ρ')
  rw [(hagree c).1, (hagree c).2.1, (hagree c).2.2.1, (hagree c).2.2.2.1, (hagree c).2.2.2.2.1, (hagree c).2.2.2.2.2.1, (hagree c).2.2.2.2.2.2]
  exact Cert.Bridge.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
